-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S2x256x256 : Shape := ⟨3, ![2, 256, 256]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S2x256x256 : S_.BroadcastsInDim S2x256x256 (![] : Fin 0 → Fin S2x256x256.rank)
  reducesTo_S2x256x256_S_d0_1_2 : S2x256x256.ReducesTo [0, 1, 2] S_

variable [Facts]

def fn {F : FTy → Type} [FloatOps F] (main_arg0 : FVec F S200000x256 .f32) (main_arg1 : FVec F S2x256x256 .f32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S2x256x256 .f32 := Host.absf main_arg1
  let main_cst_0 : FVec F S_ .f32 := constant S_ .f32 0x7F800000#32
  let main_v5 : FVec F S2x256x256 .f32 := broadcastInDim S2x256x256 ![] bcast_S_S2x256x256 main_cst_0
  let main_v6 : IVec S2x256x256 1 := cmpf .olt main_v4 main_v5
  let main_c_1 : IVec S_ 1 := constantI S_ 1 1#1
  let main_v7 : IVec S_ 1 := (fun x v => Host.reduce IntOp.andi x v reducesTo_S2x256x256_S_d0_1_2 h_S_) main_v6 main_c_1
  let main_v8 : IVec S_ 1 := andi main_v3 main_v7
  main_v8
-- ==== Kernel.lean ====
abbrev S200000x256 : Shape := ⟨2, ![200000, 256]⟩
abbrev S2x256x256 : Shape := ⟨3, ![2, 256, 256]⟩
abbrev S2x1x256 : Shape := ⟨3, ![2, 1, 256]⟩
abbrev S10000x256 : Shape := ⟨2, ![10000, 256]⟩
abbrev S1x1x256 : Shape := ⟨3, ![1, 1, 256]⟩
abbrev S256 : Shape := ⟨1, ![256]⟩
abbrev S_ : Shape := ⟨0, ![]⟩
abbrev S1x256 : Shape := ⟨2, ![1, 256]⟩
abbrev S1x256x256 : Shape := ⟨3, ![1, 256, 256]⟩
abbrev S256x256 : Shape := ⟨2, ![256, 256]⟩
abbrev S2x256 : Shape := ⟨2, ![2, 256]⟩
abbrev S5000x256 : Shape := ⟨2, ![5000, 256]⟩
abbrev S5000 : Shape := ⟨1, ![5000]⟩
abbrev S5000x1 : Shape := ⟨2, ![5000, 1]⟩
abbrev S1x512 : Shape := ⟨2, ![1, 512]⟩

abbrev nBuf : Space → Nat
  | .hbm => 65
  | .vmem => 19
  | .smem => 0
  | _ => 0

abbrev bufTy : (tb : Table) → Fin (tcTables nBuf tb) → BufTy
  | .hbm, ⟨0, _⟩ => ⟨S200000x256, .f32⟩
  | .hbm, ⟨1, _⟩ => ⟨S2x256x256, .f32⟩
  | .hbm, ⟨2, _⟩ => ⟨S2x1x256, .f32⟩
  | .hbm, ⟨3, _⟩ => ⟨S1x1x256, .f32⟩
  | .hbm, ⟨4, _⟩ => ⟨S256, .f32⟩
  | .hbm, ⟨5, _⟩ => ⟨S1x1x256, .f32⟩
  | .hbm, ⟨6, _⟩ => ⟨S256, .f32⟩
  | .hbm, ⟨7, _⟩ => ⟨S256, .f32⟩
  | .hbm, ⟨8, _⟩ => ⟨S_, .f32⟩
  | .hbm, ⟨9, _⟩ => ⟨S256, .f32⟩
  | .hbm, ⟨10, _⟩ => ⟨S256, .f32⟩
  | .hbm, ⟨11, _⟩ => ⟨S1x256, .f32⟩
  | .hbm, ⟨12, _⟩ => ⟨S1x256x256, .f32⟩
  | .hbm, ⟨13, _⟩ => ⟨S256x256, .f32⟩
  | .hbm, ⟨14, _⟩ => ⟨S1x256, .f32⟩
  | .hbm, ⟨15, _⟩ => ⟨S1x256, .f32⟩
  | .hbm, ⟨16, _⟩ => ⟨S1x256x256, .f32⟩
  | .hbm, ⟨17, _⟩ => ⟨S256x256, .f32⟩
  | .hbm, ⟨18, _⟩ => ⟨S1x256, .f32⟩
  | .hbm, ⟨19, _⟩ => ⟨S1x256, .f32⟩
  | .hbm, ⟨20, _⟩ => ⟨S2x256, .f32⟩
  | .hbm, ⟨21, _⟩ => ⟨S2x1x256, .f32⟩
  | .hbm, ⟨22, _⟩ => ⟨S2x1x256, .f32⟩
  | .hbm, ⟨23, _⟩ => ⟨S1x1x256, .f32⟩
  | .hbm, ⟨24, _⟩ => ⟨S256, .f32⟩
  | .hbm, ⟨25, _⟩ => ⟨S1x1x256, .f32⟩
  | .hbm, ⟨26, _⟩ => ⟨S256, .f32⟩
  | .hbm, ⟨27, _⟩ => ⟨S256, .f32⟩
  | .hbm, ⟨28, _⟩ => ⟨S1x1x256, .f32⟩
  | .hbm, ⟨29, _⟩ => ⟨S256, .f32⟩
  | .hbm, ⟨30, _⟩ => ⟨S1x1x256, .f32⟩
  | .hbm, ⟨31, _⟩ => ⟨S256, .f32⟩
  | .hbm, ⟨32, _⟩ => ⟨S256, .f32⟩
  | .hbm, ⟨33, _⟩ => ⟨S1x256, .f32⟩
  | .hbm, ⟨34, _⟩ => ⟨S1x256, .f32⟩
  | .hbm, ⟨35, _⟩ => ⟨S_, .f32⟩
  | .hbm, ⟨36, _⟩ => ⟨S1x256, .f32⟩
  | .hbm, ⟨37, _⟩ => ⟨S1x256, .f32⟩
  | .hbm, ⟨38, _⟩ => ⟨S_, .f32⟩
  | .hbm, ⟨39, _⟩ => ⟨S1x256, .f32⟩
  | .hbm, ⟨40, _⟩ => ⟨S1x256, .f32⟩
  | .hbm, ⟨41, _⟩ => ⟨S1x256x256, .f32⟩
  | .hbm, ⟨42, _⟩ => ⟨S256x256, .f32⟩
  | .hbm, ⟨43, _⟩ => ⟨S1x256, .f32⟩
  | .hbm, ⟨44, _⟩ => ⟨S1x256, .f32⟩
  | .hbm, ⟨45, _⟩ => ⟨S1x256x256, .f32⟩
  | .hbm, ⟨46, _⟩ => ⟨S256x256, .f32⟩
  | .hbm, ⟨47, _⟩ => ⟨S1x256, .f32⟩
  | .hbm, ⟨48, _⟩ => ⟨S1x256, .f32⟩
  | .hbm, ⟨49, _⟩ => ⟨S2x256, .f32⟩
  | .hbm, ⟨50, _⟩ => ⟨S2x1x256, .f32⟩
  | .hbm, ⟨51, _⟩ => ⟨S2x1x256, .f32⟩
  | .hbm, ⟨52, _⟩ => ⟨S1x1x256, .f32⟩
  | .hbm, ⟨53, _⟩ => ⟨S256, .f32⟩
  | .hbm, ⟨54, _⟩ => ⟨S1x1x256, .f32⟩
  | .hbm, ⟨55, _⟩ => ⟨S256, .f32⟩
  | .hbm, ⟨56, _⟩ => ⟨S256, .f32⟩
  | .hbm, ⟨57, _⟩ => ⟨S1x1x256, .f32⟩
  | .hbm, ⟨58, _⟩ => ⟨S256, .f32⟩
  | .hbm, ⟨59, _⟩ => ⟨S1x1x256, .f32⟩
  | .hbm, ⟨60, _⟩ => ⟨S256, .f32⟩
  | .hbm, ⟨61, _⟩ => ⟨S256, .f32⟩
  | .hbm, ⟨62, _⟩ => ⟨S1x256, .f32⟩
  | .hbm, ⟨63, _⟩ => ⟨S1x256, .f32⟩
  | .hbm, ⟨64, _⟩ => ⟨S1x512, .f32⟩
  | .local _ .vmem, ⟨0, _⟩ => ⟨S10000x256, .f32⟩
  | .local _ .vmem, ⟨1, _⟩ => ⟨S10000x256, .f32⟩
  | .local _ .vmem, ⟨2, _⟩ => ⟨S1x1x256, .f32⟩
  | .local _ .vmem, ⟨3, _⟩ => ⟨S1x1x256, .f32⟩
  | .local _ .vmem, ⟨4, _⟩ => ⟨S5000x256, .f32⟩
  | .local _ .vmem, ⟨5, _⟩ => ⟨S5000x256, .f32⟩
  | .local _ .vmem, ⟨6, _⟩ => ⟨S2x256, .f32⟩
  | .local _ .vmem, ⟨7, _⟩ => ⟨S1x1x256, .f32⟩
  | .local _ .vmem, ⟨8, _⟩ => ⟨S1x1x256, .f32⟩
  | .local _ .vmem, ⟨9, _⟩ => ⟨S1x1x256, .f32⟩
  | .local _ .vmem, ⟨10, _⟩ => ⟨S1x1x256, .f32⟩
  | .local _ .vmem, ⟨11, _⟩ => ⟨S5000x256, .f32⟩
  | .local _ .vmem, ⟨12, _⟩ => ⟨S5000x256, .f32⟩
  | .local _ .vmem, ⟨13, _⟩ => ⟨S2x256, .f32⟩
  | .local _ .vmem, ⟨14, _⟩ => ⟨S2x256, .f32⟩
  | .local _ .vmem, ⟨15, _⟩ => ⟨S1x1x256, .f32⟩
  | .local _ .vmem, ⟨16, _⟩ => ⟨S1x1x256, .f32⟩
  | .local _ .vmem, ⟨17, _⟩ => ⟨S1x1x256, .f32⟩
  | .local _ .vmem, ⟨18, _⟩ => ⟨S1x1x256, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18_0 : Ref sig .tc := ⟨.hbm, 21, rfl⟩
abbrev main_v18_1 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_cst_0 : Ref sig .tc := ⟨.hbm, 35, rfl⟩
abbrev main_v31 : Ref sig .tc := ⟨.hbm, 36, rfl⟩
abbrev main_v32 : Ref sig .tc := ⟨.hbm, 37, rfl⟩
abbrev main_cst_1 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44_0 : Ref sig .tc := ⟨.hbm, 50, rfl⟩
abbrev main_v44_1 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc2_stg4_0 : Ref sig .tc := ⟨.vmem, 17, rfl⟩
abbrev cc2_stg4_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc2_sem4_0 : DmaSem sig := 17
abbrev cc2_sem4_1 : DmaSem sig := 18

abbrev nD : Nat := 1
abbrev τ : Topo := Topo.v7x

variable {F : FTy → Type} [FloatOps F]

abbrev grid0 : Pipeline.Grid := ⟨2, ![2, 10], ![false, false]⟩

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![2, 20], ![false, false]⟩

def cc1_transform_0 (i : grid1.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S2x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![2, 20], ![false, false]⟩

def cc2_transform_0 (i : grid2.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S2x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S2x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x1x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x1x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

class Facts₀ : Prop where
  inb_S1x1x256_S1x1x256_0_0_0 : ∀ a, (![0, 0, 0] : Fin 3 → Nat) a + S1x1x256.size a ≤ S1x1x256.size a
  h_S1x1x256 : 0 < S1x1x256.numel
  shapeCasts_S1x1x256_S256 : S1x1x256.ShapeCasts S256
  inb_S10000x256_S10000x256_0_0 : ∀ a, (![0, 0] : Fin 2 → Nat) a + S10000x256.size a ≤ S10000x256.size a
  h_S10000x256 : 0 < S10000x256.numel
  reduces_S10000x256_S256 : S10000x256.Reduces [0] S256
  shapeCasts_S256_S1x1x256 : S256.ShapeCasts S1x1x256
  slices_S2x1x256_S1x1x256_0_0_0 : S2x1x256.Slices ![0, 0, 0] S1x1x256
  slices_S2x1x256_S1x1x256_1_0_0 : S2x1x256.Slices ![1, 0, 0] S1x1x256
  bcast_S_S256 : S_.BroadcastsInDim S256 (![] : Fin 0 → Fin S256.rank)
  bcast_S256_S1x256_1 : S256.BroadcastsInDim S1x256 (![1] : Fin 1 → Fin S1x256.rank)
  slices_S2x256x256_S1x256x256_0_0_0 : S2x256x256.Slices ![0, 0, 0] S1x256x256
  shapeCasts_S1x256x256_S256x256 : S1x256x256.ShapeCasts S256x256
  slices_S2x256x256_S1x256x256_1_0_0 : S2x256x256.Slices ![1, 0, 0] S1x256x256
  concatenates_S1x256_S1x256_S2x256_d0 : Shape.Concatenates [S1x256, S1x256] S2x256 0
  inb_S5000x256_S5000x256_0_0 : ∀ a, (![0, 0] : Fin 2 → Nat) a + S5000x256.size a ≤ S5000x256.size a
  h_S5000x256 : 0 < S5000x256.numel
  inb_S2x256_S2x256_0_0 : ∀ a, (![0, 0] : Fin 2 → Nat) a + S2x256.size a ≤ S2x256.size a
  h_S2x256 : 0 < S2x256.numel
  shapeCasts_S2x256_S2x256 : S2x256.ShapeCasts S2x256
  slices_S2x256_o0_0_S1x256 : S2x256.Slices ![0, 0] S1x256
  broadcasts_S1x256_S5000x256 : S1x256.Broadcasts S5000x256
  reduces_S5000x256_S5000 : S5000x256.Reduces [1] S5000
  shapeCasts_S5000_S5000x1 : S5000.ShapeCasts S5000x1
  broadcasts_S5000x1_S5000x256 : S5000x1.Broadcasts S5000x256
  reduces_S5000x256_S256 : S5000x256.Reduces [0] S256
  slices_S2x256_o1_0_S1x256 : S2x256.Slices ![1, 0] S1x256
  bcast_S_S1x256 : S_.BroadcastsInDim S1x256 (![] : Fin 0 → Fin S1x256.rank)
  concatenates_S1x256_S1x256_S1x512_d1 : Shape.Concatenates [S1x256, S1x256] S1x512 1
  dot_S1x256_S256x256_S1x256_1_0_0_1_n_n_wf : DotDims.WF S1x256 S256x256 S1x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S200000x256.size a
  hwx0_0 : ∀ i : grid0.Coords, EltTy.bits .f32 = 32 ∨ (Rect.block (s := S200000x256) S10000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x256.size a ≤ S2x1x256.size a
  hwx0_1 : ∀ i : grid0.Coords, EltTy.bits .f32 = 32 ∨ (Rect.block (s := S2x1x256) S1x1x256.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S200000x256.size a
  hwx1_0 : ∀ i : grid1.Coords, EltTy.bits .f32 = 32 ∨ (Rect.block (s := S200000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x256.size a ≤ S2x256.size a
  hwx1_1 : ∀ i : grid1.Coords, EltTy.bits .f32 = 32 ∨ (Rect.block (s := S2x256) S2x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x256.size a ≤ S2x1x256.size a
  hwx1_2 : ∀ i : grid1.Coords, EltTy.bits .f32 = 32 ∨ (Rect.block (s := S2x1x256) S1x1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x256.size a ≤ S2x1x256.size a
  hwx1_3 : ∀ i : grid1.Coords, EltTy.bits .f32 = 32 ∨ (Rect.block (s := S2x1x256) S1x1x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S200000x256.size a
  hwx2_0 : ∀ i : grid2.Coords, EltTy.bits .f32 = 32 ∨ (Rect.block (s := S200000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2x256.size a ≤ S2x256.size a
  hwx2_1 : ∀ i : grid2.Coords, EltTy.bits .f32 = 32 ∨ (Rect.block (s := S2x256) S2x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S2x256.size a ≤ S2x256.size a
  hwx2_2 : ∀ i : grid2.Coords, EltTy.bits .f32 = 32 ∨ (Rect.block (s := S2x256) S2x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1x256.size a ≤ S2x1x256.size a
  hwx2_3 : ∀ i : grid2.Coords, EltTy.bits .f32 = 32 ∨ (Rect.block (s := S2x1x256) S1x1x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1x256.size a ≤ S2x1x256.size a
  hwx2_4 : ∀ i : grid2.Coords, EltTy.bits .f32 = 32 ∨ (Rect.block (s := S2x1x256) S1x1x256.size (cc2_transform_4 i) (hinb2_4 i)).WholeWords (EltTy.packing .f32)

variable [Facts₀]

def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S2x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18_0) S1x1x256.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18_1) S1x1x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S2x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S2x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44_0) S1x1x256.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v44_1) S1x1x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S200000x256 : Shape := ⟨2, ![200000, 256]⟩
abbrev S2x256x256 : Shape := ⟨3, ![2, 256, 256]⟩
abbrev S1x256x256 : Shape := ⟨3, ![1, 256, 256]⟩
abbrev S256x256 : Shape := ⟨2, ![256, 256]⟩
abbrev S_ : Shape := ⟨0, ![]⟩
abbrev S256 : Shape := ⟨1, ![256]⟩
abbrev S1x256 : Shape := ⟨2, ![1, 256]⟩
abbrev S256x1 : Shape := ⟨2, ![256, 1]⟩
abbrev S200000x1 : Shape := ⟨2, ![200000, 1]⟩
abbrev S200000 : Shape := ⟨1, ![200000]⟩
abbrev S1x200000 : Shape := ⟨2, ![1, 200000]⟩
abbrev S1x512 : Shape := ⟨2, ![1, 512]⟩

abbrev nBuf : Space → Nat
  | .hbm => 127
  | .vmem => 0
  | .smem => 0
  | _ => 0

abbrev bufTy : (tb : Table) → Fin (tcTables nBuf tb) → BufTy
  | .hbm, ⟨0, _⟩ => ⟨S200000x256, .f32⟩
  | .hbm, ⟨1, _⟩ => ⟨S2x256x256, .f32⟩
  | .hbm, ⟨2, _⟩ => ⟨S1x256x256, .f32⟩
  | .hbm, ⟨3, _⟩ => ⟨S256x256, .f32⟩
  | .hbm, ⟨4, _⟩ => ⟨S_, .f32⟩
  | .hbm, ⟨5, _⟩ => ⟨S256, .f32⟩
  | .hbm, ⟨6, _⟩ => ⟨S1x256, .f32⟩
  | .hbm, ⟨7, _⟩ => ⟨S_, .f32⟩
  | .hbm, ⟨8, _⟩ => ⟨S1x256, .f32⟩
  | .hbm, ⟨9, _⟩ => ⟨S1x256, .f32⟩
  | .hbm, ⟨10, _⟩ => ⟨S1x256, .f32⟩
  | .hbm, ⟨11, _⟩ => ⟨S1x256, .f32⟩
  | .hbm, ⟨12, _⟩ => ⟨S256x1, .f32⟩
  | .hbm, ⟨13, _⟩ => ⟨S200000x1, .f32⟩
  | .hbm, ⟨14, _⟩ => ⟨S200000x1, .f32⟩
  | .hbm, ⟨15, _⟩ => ⟨S_, .f32⟩
  | .hbm, ⟨16, _⟩ => ⟨S200000, .f32⟩
  | .hbm, ⟨17, _⟩ => ⟨S200000x1, .f32⟩
  | .hbm, ⟨18, _⟩ => ⟨S_, .f32⟩
  | .hbm, ⟨19, _⟩ => ⟨S200000x1, .f32⟩
  | .hbm, ⟨20, _⟩ => ⟨S200000x1, .f32⟩
  | .hbm, ⟨21, _⟩ => ⟨S200000x1, .f32⟩
  | .hbm, ⟨22, _⟩ => ⟨S200000x1, .f32⟩
  | .hbm, ⟨23, _⟩ => ⟨S200000x1, .f32⟩
  | .hbm, ⟨24, _⟩ => ⟨S_, .f32⟩
  | .hbm, ⟨25, _⟩ => ⟨S200000x1, .f32⟩
  | .hbm, ⟨26, _⟩ => ⟨S200000x1, .f32⟩
  | .hbm, ⟨27, _⟩ => ⟨S_, .f32⟩
  | .hbm, ⟨28, _⟩ => ⟨S200000x1, .f32⟩
  | .hbm, ⟨29, _⟩ => ⟨S200000x1, .f32⟩
  | .hbm, ⟨30, _⟩ => ⟨S1x200000, .f32⟩
  | .hbm, ⟨31, _⟩ => ⟨S1x256, .f32⟩
  | .hbm, ⟨32, _⟩ => ⟨S200000x256, .f32⟩
  | .hbm, ⟨33, _⟩ => ⟨S200000x256, .f32⟩
  | .hbm, ⟨34, _⟩ => ⟨S_, .f32⟩
  | .hbm, ⟨35, _⟩ => ⟨S256, .f32⟩
  | .hbm, ⟨36, _⟩ => ⟨S1x256, .f32⟩
  | .hbm, ⟨37, _⟩ => ⟨S_, .f32⟩
  | .hbm, ⟨38, _⟩ => ⟨S1x256, .f32⟩
  | .hbm, ⟨39, _⟩ => ⟨S1x256, .f32⟩
  | .hbm, ⟨40, _⟩ => ⟨S1x256, .f32⟩
  | .hbm, ⟨41, _⟩ => ⟨S1x256, .f32⟩
  | .hbm, ⟨42, _⟩ => ⟨S256x1, .f32⟩
  | .hbm, ⟨43, _⟩ => ⟨S200000x1, .f32⟩
  | .hbm, ⟨44, _⟩ => ⟨S200000x1, .f32⟩
  | .hbm, ⟨45, _⟩ => ⟨S_, .f32⟩
  | .hbm, ⟨46, _⟩ => ⟨S200000, .f32⟩
  | .hbm, ⟨47, _⟩ => ⟨S200000x1, .f32⟩
  | .hbm, ⟨48, _⟩ => ⟨S_, .f32⟩
  | .hbm, ⟨49, _⟩ => ⟨S200000x1, .f32⟩
  | .hbm, ⟨50, _⟩ => ⟨S200000x1, .f32⟩
  | .hbm, ⟨51, _⟩ => ⟨S200000x1, .f32⟩
  | .hbm, ⟨52, _⟩ => ⟨S200000x1, .f32⟩
  | .hbm, ⟨53, _⟩ => ⟨S200000x1, .f32⟩
  | .hbm, ⟨54, _⟩ => ⟨S_, .f32⟩
  | .hbm, ⟨55, _⟩ => ⟨S200000x1, .f32⟩
  | .hbm, ⟨56, _⟩ => ⟨S200000x1, .f32⟩
  | .hbm, ⟨57, _⟩ => ⟨S_, .f32⟩
  | .hbm, ⟨58, _⟩ => ⟨S200000x1, .f32⟩
  | .hbm, ⟨59, _⟩ => ⟨S200000x1, .f32⟩
  | .hbm, ⟨60, _⟩ => ⟨S1x200000, .f32⟩
  | .hbm, ⟨61, _⟩ => ⟨S1x256, .f32⟩
  | .hbm, ⟨62, _⟩ => ⟨S200000x256, .f32⟩
  | .hbm, ⟨63, _⟩ => ⟨S200000x256, .f32⟩
  | .hbm, ⟨64, _⟩ => ⟨S1x256x256, .f32⟩
  | .hbm, ⟨65, _⟩ => ⟨S256x256, .f32⟩
  | .hbm, ⟨66, _⟩ => ⟨S_, .f32⟩
  | .hbm, ⟨67, _⟩ => ⟨S256, .f32⟩
  | .hbm, ⟨68, _⟩ => ⟨S1x256, .f32⟩
  | .hbm, ⟨69, _⟩ => ⟨S_, .f32⟩
  | .hbm, ⟨70, _⟩ => ⟨S1x256, .f32⟩
  | .hbm, ⟨71, _⟩ => ⟨S1x256, .f32⟩
  | .hbm, ⟨72, _⟩ => ⟨S1x256, .f32⟩
  | .hbm, ⟨73, _⟩ => ⟨S1x256, .f32⟩
  | .hbm, ⟨74, _⟩ => ⟨S256x1, .f32⟩
  | .hbm, ⟨75, _⟩ => ⟨S200000x1, .f32⟩
  | .hbm, ⟨76, _⟩ => ⟨S200000x1, .f32⟩
  | .hbm, ⟨77, _⟩ => ⟨S_, .f32⟩
  | .hbm, ⟨78, _⟩ => ⟨S200000, .f32⟩
  | .hbm, ⟨79, _⟩ => ⟨S200000x1, .f32⟩
  | .hbm, ⟨80, _⟩ => ⟨S_, .f32⟩
  | .hbm, ⟨81, _⟩ => ⟨S200000x1, .f32⟩
  | .hbm, ⟨82, _⟩ => ⟨S200000x1, .f32⟩
  | .hbm, ⟨83, _⟩ => ⟨S200000x1, .f32⟩
  | .hbm, ⟨84, _⟩ => ⟨S200000x1, .f32⟩
  | .hbm, ⟨85, _⟩ => ⟨S200000x1, .f32⟩
  | .hbm, ⟨86, _⟩ => ⟨S_, .f32⟩
  | .hbm, ⟨87, _⟩ => ⟨S200000x1, .f32⟩
  | .hbm, ⟨88, _⟩ => ⟨S200000x1, .f32⟩
  | .hbm, ⟨89, _⟩ => ⟨S_, .f32⟩
  | .hbm, ⟨90, _⟩ => ⟨S200000x1, .f32⟩
  | .hbm, ⟨91, _⟩ => ⟨S200000x1, .f32⟩
  | .hbm, ⟨92, _⟩ => ⟨S1x200000, .f32⟩
  | .hbm, ⟨93, _⟩ => ⟨S1x256, .f32⟩
  | .hbm, ⟨94, _⟩ => ⟨S200000x256, .f32⟩
  | .hbm, ⟨95, _⟩ => ⟨S200000x256, .f32⟩
  | .hbm, ⟨96, _⟩ => ⟨S_, .f32⟩
  | .hbm, ⟨97, _⟩ => ⟨S256, .f32⟩
  | .hbm, ⟨98, _⟩ => ⟨S1x256, .f32⟩
  | .hbm, ⟨99, _⟩ => ⟨S_, .f32⟩
  | .hbm, ⟨100, _⟩ => ⟨S1x256, .f32⟩
  | .hbm, ⟨101, _⟩ => ⟨S1x256, .f32⟩
  | .hbm, ⟨102, _⟩ => ⟨S1x256, .f32⟩
  | .hbm, ⟨103, _⟩ => ⟨S1x256, .f32⟩
  | .hbm, ⟨104, _⟩ => ⟨S256x1, .f32⟩
  | .hbm, ⟨105, _⟩ => ⟨S200000x1, .f32⟩
  | .hbm, ⟨106, _⟩ => ⟨S200000x1, .f32⟩
  | .hbm, ⟨107, _⟩ => ⟨S_, .f32⟩
  | .hbm, ⟨108, _⟩ => ⟨S200000, .f32⟩
  | .hbm, ⟨109, _⟩ => ⟨S200000x1, .f32⟩
  | .hbm, ⟨110, _⟩ => ⟨S_, .f32⟩
  | .hbm, ⟨111, _⟩ => ⟨S200000x1, .f32⟩
  | .hbm, ⟨112, _⟩ => ⟨S200000x1, .f32⟩
  | .hbm, ⟨113, _⟩ => ⟨S200000x1, .f32⟩
  | .hbm, ⟨114, _⟩ => ⟨S200000x1, .f32⟩
  | .hbm, ⟨115, _⟩ => ⟨S200000x1, .f32⟩
  | .hbm, ⟨116, _⟩ => ⟨S_, .f32⟩
  | .hbm, ⟨117, _⟩ => ⟨S200000x1, .f32⟩
  | .hbm, ⟨118, _⟩ => ⟨S200000x1, .f32⟩
  | .hbm, ⟨119, _⟩ => ⟨S_, .f32⟩
  | .hbm, ⟨120, _⟩ => ⟨S200000x1, .f32⟩
  | .hbm, ⟨121, _⟩ => ⟨S200000x1, .f32⟩
  | .hbm, ⟨122, _⟩ => ⟨S1x200000, .f32⟩
  | .hbm, ⟨123, _⟩ => ⟨S1x256, .f32⟩
  | .hbm, ⟨124, _⟩ => ⟨S200000x256, .f32⟩
  | .hbm, ⟨125, _⟩ => ⟨S200000x256, .f32⟩
  | .hbm, ⟨126, _⟩ => ⟨S1x512, .f32⟩
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_5 : Ref sig .tc := ⟨.hbm, 34, rfl⟩
abbrev main_v26 : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_7 : Ref sig .tc := ⟨.hbm, 45, rfl⟩
abbrev main_v35 : Ref sig .tc := ⟨.hbm, 46, rfl⟩
abbrev main_v36 : Ref sig .tc := ⟨.hbm, 47, rfl⟩
abbrev main_cst_8 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_9 : Ref sig .tc := ⟨.hbm, 54, rfl⟩
abbrev main_v42 : Ref sig .tc := ⟨.hbm, 55, rfl⟩
abbrev main_v43 : Ref sig .tc := ⟨.hbm, 56, rfl⟩
abbrev main_cst_10 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_11 : Ref sig .tc := ⟨.hbm, 66, rfl⟩
abbrev main_v52 : Ref sig .tc := ⟨.hbm, 67, rfl⟩
abbrev main_v53 : Ref sig .tc := ⟨.hbm, 68, rfl⟩
abbrev main_cst_12 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_13 : Ref sig .tc := ⟨.hbm, 77, rfl⟩
abbrev main_v61 : Ref sig .tc := ⟨.hbm, 78, rfl⟩
abbrev main_v62 : Ref sig .tc := ⟨.hbm, 79, rfl⟩
abbrev main_cst_14 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_15 : Ref sig .tc := ⟨.hbm, 86, rfl⟩
abbrev main_v68 : Ref sig .tc := ⟨.hbm, 87, rfl⟩
abbrev main_v69 : Ref sig .tc := ⟨.hbm, 88, rfl⟩
abbrev main_cst_16 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_17 : Ref sig .tc := ⟨.hbm, 96, rfl⟩
abbrev main_v76 : Ref sig .tc := ⟨.hbm, 97, rfl⟩
abbrev main_v77 : Ref sig .tc := ⟨.hbm, 98, rfl⟩
abbrev main_cst_18 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_cst_19 : Ref sig .tc := ⟨.hbm, 107, rfl⟩
abbrev main_v85 : Ref sig .tc := ⟨.hbm, 108, rfl⟩
abbrev main_v86 : Ref sig .tc := ⟨.hbm, 109, rfl⟩
abbrev main_cst_20 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_cst_21 : Ref sig .tc := ⟨.hbm, 116, rfl⟩
abbrev main_v92 : Ref sig .tc := ⟨.hbm, 117, rfl⟩
abbrev main_v93 : Ref sig .tc := ⟨.hbm, 118, rfl⟩
abbrev main_cst_22 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩

abbrev nD : Nat := 1
abbrev τ : Topo := Topo.v7x

variable {F : FTy → Type} [FloatOps F]

class Facts₀ : Prop where
  slices_S2x256x256_S1x256x256_0_0_0 : S2x256x256.Slices ![0, 0, 0] S1x256x256
  shapeCasts_S1x256x256_S256x256 : S1x256x256.ShapeCasts S256x256
  reducesTo_S200000x256_S256_d0 : S200000x256.ReducesTo [0] S256
  h_S_ : 0 < S_.numel
  bcast_S256_S1x256_1 : S256.BroadcastsInDim S1x256 (![1] : Fin 1 → Fin S1x256.rank)
  bcast_S_S1x256 : S_.BroadcastsInDim S1x256 (![] : Fin 0 → Fin S1x256.rank)
  transposes_S1x256_S256x1_1_0 : S1x256.Transposes [1, 0] S256x1
  reducesTo_S200000x1_S200000_d1 : S200000x1.ReducesTo [1] S200000
  bcast_S200000_S200000x1_0 : S200000.BroadcastsInDim S200000x1 (![0] : Fin 1 → Fin S200000x1.rank)
  bcast_S_S200000x1 : S_.BroadcastsInDim S200000x1 (![] : Fin 0 → Fin S200000x1.rank)
  transposes_S200000x1_S1x200000_1_0 : S200000x1.Transposes [1, 0] S1x200000
  bcast_S200000x1_S200000x256_0_1 : S200000x1.BroadcastsInDim S200000x256 (![0, 1] : Fin 2 → Fin S200000x256.rank)
  slices_S2x256x256_S1x256x256_1_0_0 : S2x256x256.Slices ![1, 0, 0] S1x256x256
  concatenates_S1x256_S1x256_S1x512_d1 : Shape.Concatenates [S1x256, S1x256] S1x512 1
  dot_S1x256_S256x256_S1x256_1_0_0_1_n_n_wf : DotDims.WF S1x256 S256x256 S1x256 [1] [0] [0] [1] [] []
  dot_S200000x256_S256x1_S200000x1_1_0_0_1_n_n_wf : DotDims.WF S200000x256 S256x1 S200000x1 [1] [0] [0] [1] [] []
  dot_S1x200000_S200000x256_S1x256_1_0_0_1_n_n_wf : DotDims.WF S1x200000 S200000x256 S1x256 [1] [0] [0] [1] [] []

variable [Facts₀]

def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf
def dot_S200000x256_S256x1_S200000x1_1_0_0_1_n_n : DotDims S200000x256 S256x1 S200000x1 where
  lhsContracting := [1]
  rhsContracting := [0]
  lhsNonContracting := [0]
  rhsNonContracting := [1]
  lhsBatch := []
  rhsBatch := []
  wf := dot_S200000x256_S256x1_S200000x1_1_0_0_1_n_n_wf
def dot_S1x200000_S200000x256_S1x256_1_0_0_1_n_n : DotDims S1x200000 S200000x256 S1x256 where
  lhsContracting := [1]
  rhsContracting := [0]
  lhsNonContracting := [0]
  rhsNonContracting := [1]
  lhsBatch := []
  rhsBatch := []
  wf := dot_S1x200000_S200000x256_S1x256_1_0_0_1_n_n_wf

class Facts : Prop extends Facts₀ where

variable [Facts]
-- ==== Proof.KernelRun.lean ====
import proofs.«156319_j5583457485032_2_alg».proof.Proof.Gen.KernelIdeal.Frame

/-!
  The idealized kernel program's run with its RESULT named.

  The program is three kernel regions among four stretches of host operations. Its buffers'
  contents at each boundary are a fold from the launch memory: a region leaves each of its arrays
  at what its write-backs leave and every other buffer as it was, a host stretch applies its
  operations. After the last stretch the fold is `Gen.W6`. Every weakly fair execution ends with
  every unscoped buffer at that fold; read at the result buffer this names the result, and read at
  the two argument buffers it gives back the launch contents.
-/

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the fold's
    contents there and the two arguments as launched. -/
theorem run : θ_run defs (onTc (τ := τ) (main (F := F))) ⟨m, fun _ => 0, ρ⟩ (fun r => ∀ c : Dev nD,
      r.2.mem ((c.tc : Thread nD τ).loc main_v57) = W6 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v57 (by decide)),
       (h c _ (mem_uc main_arg0 (by decide))).trans (W6_main_arg0 m ρ c),
       (h c _ (mem_uc main_arg1 (by decide))).trans (W6_main_arg1 m ρ c)⟩)

end Cert.KernelIdeal.Run

end
-- ==== Proof.BodyValues.lean ====
import proofs.«156319_j5583457485032_2_alg».proof.Proof.Gen.KernelIdeal.Frame
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

/-!
  What one run of each kernel body leaves in its output blocks, as a value.

  Each body either resets its accumulator blocks to zero first (the first step of a core's sweep) or
  finds them as the step before left them; then it adds the tile's contribution and stores the
  block whole. So in both cases the block ends at the body's stored term (a pure function of the
  loaded tile, the loaded directions and the accumulator's previous contents), taken at the zero
  block after a reset and at the previous contents otherwise.
-/
namespace Cert.KernelIdeal.BodyValues
open Cert.KernelIdeal Cert.KernelIdeal.Gen
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-! ## The column-sum body -/
section ColumnSum
variable (c : Dev nD) (i : grid0.Coords) (a2 : Memref sig .tc .vmem S10000x256 .f32) (h2 : a2.IsWhole)
    (a3 : Memref sig .tc .vmem S1x1x256 .f32) (h3 : a3.IsWhole) (x : Vec F S10000x256 .f32) (xo : Vec F S1x1x256 .f32)

/-- A later step: the previous block plus the tile's column sums. -/
theorem colsum_later (hc : ¬cond0_0 i) : out0_B_1 c i a2 h2 a3 h3 hc x xo = k0_pay2 xo x := by
  unfold out0_B_1
  rw [View.read_writes_eq_canon _ _ _ (cover0_B_1 c i a2 h2 a3 h3 hc x xo)]
  unfold kernelRun0_B
  dsimp only
  rw [View.canon_unit_zero hz3]
  simp only [View.readAt_eq_ld, h2.read_unread, h3.read_unread, View.ld_unit_zero (S := S1x1x256) hz3, View.ld_unit_zero (S := S10000x256) hz2]

/-- A first step: the zero block plus the tile's column sums. -/
theorem colsum_first (hc : cond0_0 i) : out0_A_1 c i a2 h2 a3 h3 hc x = k0_pay2 (k0_pay1 (F := F)) x := by
  unfold out0_A_1
  rw [View.read_writes_eq_canon _ _ _ (cover0_A_1 c i a2 h2 a3 h3 hc x)]
  unfold kernelRun0_A
  dsimp only
  sl_unfold_words
  rw [View.canon_cons_unit_zero (S := S1x1x256) hz3, View.readCov_unit_zero (S := S1x1x256) _ hz3]
  simp only [View.readAt_eq_ld, h2.read_unread, View.ld_unit_zero (S := S10000x256) hz2]
end ColumnSum

/-! ## Round 0's body (both heads) -/
section Round0
variable (c : Dev nD) (i : grid1.Coords) (a2 : Memref sig .tc .vmem S5000x256 .f32) (h2 : a2.IsWhole)
    (a3 : Memref sig .tc .vmem S2x256 .f32) (h3 : a3.IsWhole) (a4 : Memref sig .tc .vmem S1x1x256 .f32) (h4 : a4.IsWhole)
    (a5 : Memref sig .tc .vmem S1x1x256 .f32) (h5 : a5.IsWhole)
    (x : Vec F S5000x256 .f32) (h : Vec F S2x256 .f32) (xo2 xo3 : Vec F S1x1x256 .f32)

theorem round0_later_head0 (hc : ¬cond1_0 i) : out1_B_2 c i a2 h2 a3 h3 a4 h4 a5 h5 hc x h xo2 xo3 = k1_pay5 x h xo2 := by
  unfold out1_B_2
  rw [View.read_writes_eq_canon _ _ _ (cover1_B_2 c i a2 h2 a3 h3 a4 h4 a5 h5 hc x h xo2 xo3)]
  unfold kernelRun1_B
  dsimp only
  sl_unfold_words
  rw [View.canon_unit_zero hz3]
  simp only [View.readAt_eq_ld, h2.read_unread, h3.read_unread, h4.read_unread, View.ld_unit_zero (S := S1x1x256) hz3, View.ld_unit_zero (S := S5000x256) hz2, View.ld_unit_zero (S := S2x256) hz2]
theorem round0_later_head1 (hc : ¬cond1_0 i) : out1_B_3 c i a2 h2 a3 h3 a4 h4 a5 h5 hc x h xo2 xo3 = k1_pay1 x (k1_pay6 x h) xo3 := by
  unfold out1_B_3
  rw [View.read_writes_eq_canon _ _ _ (cover1_B_3 c i a2 h2 a3 h3 a4 h4 a5 h5 hc x h xo2 xo3)]
  unfold kernelRun1_B
  dsimp only
  sl_unfold_words
  rw [View.canon_unit_zero hz3]
  simp only [View.readAt_eq_ld, h2.read_unread, h3.read_unread, h5.read_unread, View.ld_unit_zero (S := S1x1x256) hz3, View.ld_unit_zero (S := S5000x256) hz2, View.ld_unit_zero (S := S2x256) hz2]
theorem round0_first_head0 (hc : cond1_0 i) : out1_A_2 c i a2 h2 a3 h3 a4 h4 a5 h5 hc x h = k1_pay5 x h (k1_pay2 (F := F)) := by
  unfold out1_A_2
  rw [View.read_writes_eq_canon _ _ _ (cover1_A_2 c i a2 h2 a3 h3 a4 h4 a5 h5 hc x h)]
  unfold kernelRun1_A
  dsimp only
  sl_unfold_words
  rw [View.canon_cons_unit_zero (S := S1x1x256) hz3, View.readCov_unit_zero (S := S1x1x256) _ hz3]
  simp only [View.readAt_eq_ld, h2.read_unread, h3.read_unread, View.ld_unit_zero (S := S5000x256) hz2, View.ld_unit_zero (S := S2x256) hz2]
theorem round0_first_head1 (hc : cond1_0 i) : out1_A_3 c i a2 h2 a3 h3 a4 h4 a5 h5 hc x h = k1_pay1 x (k1_pay6 x h) (k1_pay3 (F := F)) := by
  unfold out1_A_3
  rw [View.read_writes_eq_canon _ _ _ (cover1_A_3 c i a2 h2 a3 h3 a4 h4 a5 h5 hc x h)]
  unfold kernelRun1_A
  dsimp only
  sl_unfold_words
  rw [View.canon_cons_unit_zero (S := S1x1x256) hz3, View.readCov_unit_zero (S := S1x1x256) _ hz3]
  simp only [View.readAt_eq_ld, h2.read_unread, h3.read_unread, View.ld_unit_zero (S := S5000x256) hz2, View.ld_unit_zero (S := S2x256) hz2]
end Round0

/-! ## Round 1's body (both heads) -/
section Round1
variable (c : Dev nD) (i : grid2.Coords) (a2 : Memref sig .tc .vmem S5000x256 .f32) (h2 : a2.IsWhole)
    (a3 : Memref sig .tc .vmem S2x256 .f32) (h3 : a3.IsWhole) (a4 : Memref sig .tc .vmem S2x256 .f32) (h4 : a4.IsWhole)
    (a5 : Memref sig .tc .vmem S1x1x256 .f32) (h5 : a5.IsWhole) (a6 : Memref sig .tc .vmem S1x1x256 .f32) (h6 : a6.IsWhole)
    (x : Vec F S5000x256 .f32) (g0 g1 : Vec F S2x256 .f32) (xo3 xo4 : Vec F S1x1x256 .f32)

theorem round1_later_head0 (hc : ¬cond2_0 i) :
    out2_B_3 c i a2 h2 a3 h3 a4 h4 a5 h5 a6 h6 hc x g0 g1 xo3 xo4 = k2_pay1 (k2_pay7 x g0 g1 xo3) := by
  unfold out2_B_3
  rw [View.read_writes_eq_canon _ _ _ (cover2_B_3 c i a2 h2 a3 h3 a4 h4 a5 h5 a6 h6 hc x g0 g1 xo3 xo4)]
  unfold kernelRun2_B
  dsimp only
  sl_unfold_words
  rw [View.canon_unit_zero hz3]
  simp only [View.readAt_eq_ld, h2.read_unread, h3.read_unread, h4.read_unread, h5.read_unread, View.ld_unit_zero (S := S1x1x256) hz3, View.ld_unit_zero (S := S5000x256) hz2, View.ld_unit_zero (S := S2x256) hz2]
theorem round1_later_head1 (hc : ¬cond2_0 i) :
    out2_B_4 c i a2 h2 a3 h3 a4 h4 a5 h5 a6 h6 hc x g0 g1 xo3 xo4 = k2_pay2 x (k2_pay5 g0) (k2_pay6 g1) xo4 := by
  unfold out2_B_4
  rw [View.read_writes_eq_canon _ _ _ (cover2_B_4 c i a2 h2 a3 h3 a4 h4 a5 h5 a6 h6 hc x g0 g1 xo3 xo4)]
  unfold kernelRun2_B
  dsimp only
  sl_unfold_words
  rw [View.canon_unit_zero hz3]
  simp only [View.readAt_eq_ld, h2.read_unread, h3.read_unread, h4.read_unread, h6.read_unread, View.ld_unit_zero (S := S1x1x256) hz3, View.ld_unit_zero (S := S5000x256) hz2, View.ld_unit_zero (S := S2x256) hz2]
theorem round1_first_head0 (hc : cond2_0 i) :
    out2_A_3 c i a2 h2 a3 h3 a4 h4 a5 h5 a6 h6 hc x g0 g1 = k2_pay1 (k2_pay7 x g0 g1 (k2_pay3 (F := F))) := by
  unfold out2_A_3
  rw [View.read_writes_eq_canon _ _ _ (cover2_A_3 c i a2 h2 a3 h3 a4 h4 a5 h5 a6 h6 hc x g0 g1)]
  unfold kernelRun2_A
  dsimp only
  sl_unfold_words
  rw [View.canon_cons_unit_zero (S := S1x1x256) hz3, View.readCov_unit_zero (S := S1x1x256) _ hz3]
  simp only [View.readAt_eq_ld, h2.read_unread, h3.read_unread, h4.read_unread, View.ld_unit_zero (S := S5000x256) hz2, View.ld_unit_zero (S := S2x256) hz2]
theorem round1_first_head1 (hc : cond2_0 i) :
    out2_A_4 c i a2 h2 a3 h3 a4 h4 a5 h5 a6 h6 hc x g0 g1 = k2_pay2 x (k2_pay5 g0) (k2_pay6 g1) (k2_pay4 (F := F)) := by
  unfold out2_A_4
  rw [View.read_writes_eq_canon _ _ _ (cover2_A_4 c i a2 h2 a3 h3 a4 h4 a5 h5 a6 h6 hc x g0 g1)]
  unfold kernelRun2_A
  dsimp only
  sl_unfold_words
  rw [View.canon_cons_unit_zero (S := S1x1x256) hz3, View.readCov_unit_zero (S := S1x1x256) _ hz3]
  simp only [View.readAt_eq_ld, h2.read_unread, h3.read_unread, h4.read_unread, View.ld_unit_zero (S := S5000x256) hz2, View.ld_unit_zero (S := S2x256) hz2]
end Round1

end Cert.KernelIdeal.BodyValues
end
-- ==== Proof.Attention.lean ====
/-
  The mathematics both programs compute, over the extended reals.

  Data: `x`, 200000 rows of 256 features, and one 256×256 matrix `w` per head.
  One head, two rounds:
    round 0   μ₀ = column means of x,  h₀ = tanh (μ₀ · w),  s₀ n = ⟨x n, h₀⟩,
              a₀ n = σ (s₀ n / max |s₀ n| ε),  y n = x n · a₀ n   (each row re-weighted)
    round 1   μ₁ = column means of y,  h₁ = tanh (μ₁ · w),  s₁ n = ⟨y n, h₁⟩,
              a₁ n = σ (s₁ n / max |s₁ n| ε),  out d = ∑ n, a₁ n · y n d.
  σ is the logistic function; ε and the row count 200000 enter as the float constants both
  programs print (the same words on both sides, never evaluated).
-/
import Idealize.ShloMosaic.PureOps.Ideal
import Idealize.ShloMosaic.PureOps.Ideal.Laws
import Idealize.ShloMosaic.Lib.ValueIdx

noncomputable section

namespace Cert.Attn

open Idealize.ShloMosaic

/-- 200000 rows of 256 features. -/
abbrev Rows := Fin 200000 → Fin 256 → EReal
/-- A feature vector. -/
abbrev Feat := Fin 256 → EReal
/-- One head's projection matrix, `w d e`. -/
abbrev Mat := Fin 256 → Fin 256 → EReal

/-- The row count as both programs print it (the float 200000). -/
def cN : EReal := Ideal.ofBits .f32 0x48435000#32
/-- The normaliser's floor ε as both programs print it (the float nearest 1e-12). -/
def cEps : EReal := Ideal.ofBits .f32 0x2B8CBCCC#32

/-- Column sums. -/
def colsum (y : Rows) : Feat := fun d => ∑ n : Fin 200000, y n d
/-- Column means: the column sum divided by the row count. -/
def mean (y : Rows) : Feat := fun d => Ideal.div (colsum y d) cN
/-- `tanh (μ · w)`. -/
def proj (mu : Feat) (w : Mat) : Feat := fun e => Ideal.tanh (∑ d : Fin 256, mu d * w d e)
/-- The score of a row against a direction: their inner product. -/
def dot (v : Feat) (h : Feat) : EReal := ∑ d : Fin 256, v d * h d
/-- `σ (s / max |s| ε)`: a score normalised by its own magnitude (floored at ε), then squashed. -/
def gate (s : EReal) : EReal := Ideal.logistic (Ideal.div s (max (max s (-s)) cEps))
/-- Each row scaled by its own weight. -/
def weigh (y : Rows) (a : Fin 200000 → EReal) : Rows := fun n d => y n d * a n

/-- Round 0's direction. -/
def h0 (x : Rows) (w : Mat) : Feat := proj (mean x) w
/-- Round 0's weights. -/
def a0 (x : Rows) (w : Mat) (n : Fin 200000) : EReal := gate (dot (x n) (h0 x w))
/-- The rows after round 0. -/
def y1 (x : Rows) (w : Mat) : Rows := weigh x (a0 x w)
/-- Round 1's direction. -/
def h1 (x : Rows) (w : Mat) : Feat := proj (mean (y1 x w)) w
/-- Round 1's weights. -/
def a1 (x : Rows) (w : Mat) (n : Fin 200000) : EReal := gate (dot (y1 x w n) (h1 x w))
/-- The head's output: the rows after round 0 pooled by round 1's weights. -/
def out (x : Rows) (w : Mat) : Feat := fun d => ∑ n : Fin 200000, a1 x w n * y1 x w n d

/-- An array of shape 200000×256 read as rows. -/
def rowsOf (x0 : (⟨2, ![200000, 256]⟩ : Shape).Idx → EReal) : Rows := fun n d => x0 (ValueIdx.ix2 n d)
/-- Head `i`'s matrix out of an array of shape 2×256×256. -/
def matOf (x1 : (⟨3, ![2, 256, 256]⟩ : Shape).Idx → EReal) (i : Fin 2) : Mat := fun d e => x1 (ValueIdx.ix3 i d e)

end Cert.Attn

end
-- ==== Proof.TileValues.lean ====
/-
  The three kernel bodies' arithmetic, read at one index.

  Each stored value of a kernel body is one pure term of the body's loads. Here every such term is read at the
  index `(0, 0, d)` of the `[1, 1, 256]` block it is stored to, at the ideal values, and restated over the extended
  reals with the inner product `dot` and the normalised, squashed score `gate`:
    • the reset blocks are zero;
    • the column-sum body adds a tile's column sums to the accumulator;
    • round 0, head `i`: the accumulator plus `∑ r, x r d · gate ⟨x r, h i⟩` over the tile's rows;
    • round 1, head `i`: with `g r = gate ⟨x r, h₀ i⟩` (round 0's weight, recomputed), the accumulator plus
      `∑ r, gate ⟨x r · g r, h₁ i⟩ · (x r d · g r)`.
  First the layout operations the bodies use, read at an index given by coordinates (a unit axis added or dropped,
  a column laid along the lanes, a row cut out and laid over the rows), and a sum along either axis of a matrix;
  then the two building blocks of a round (the score column and the weight column); then the stored values.
-/
import proofs.«156319_j5583457485032_2_alg».proof.Proof.Gen.KernelIdeal.Skeleton
import proofs.«156319_j5583457485032_2_alg».proof.Proof.Attention
import Idealize.ShloMosaic.Lib.ValueIdx
import Idealize.ShloMosaic.Lib.ValueLayout
import Idealize.ShloMosaic.Lib.Pipeline.Value
import Idealize.ShloMosaic.PureOps.Ideal.Laws

noncomputable section

namespace Cert.Tiles

open Idealize.ShloMosaic Cert.KernelIdeal Cert.KernelIdeal.Gen Cert.Attn ValueIdx

/-! ## Layout operations read at an index given by coordinates -/

section Layout
variable {α : Type}

/-- A `[1, 1, n]` array viewed as a vector reads, at `d`, the operand at `(0, 0, d)`. -/
theorem cast_11n_n_apply {n : ℕ} (v : (⟨3, ![1, 1, n]⟩ : Shape).Idx → α)
    (h : (⟨3, ![1, 1, n]⟩ : Shape).ShapeCasts ⟨1, ![n]⟩) (d : Fin n) :
    shapeCast ⟨1, ![n]⟩ v h (ix1 d) = v (ix3 (0 : Fin 1) (0 : Fin 1) d) :=
  shapeCast_apply v h _ _ (by
    rw [Shape.rowMajor_val_three, Shape.rowMajor_val_one]
    show (0 * 1 + 0) * n + d.val = d.val
    simp only [Nat.zero_mul, Nat.zero_add])

/-- A vector viewed as a `[1, 1, n]` array reads, at `(u, w, d)`, the operand at `d`. -/
theorem cast_n_11n_apply {n : ℕ} (v : (⟨1, ![n]⟩ : Shape).Idx → α)
    (h : (⟨1, ![n]⟩ : Shape).ShapeCasts ⟨3, ![1, 1, n]⟩) (u w : Fin 1) (d : Fin n) :
    shapeCast ⟨3, ![1, 1, n]⟩ v h (ix3 u w d) = v (ix1 d) :=
  shapeCast_apply v h _ _ (by
    have hu : u.val = 0 := by omega
    have hw : w.val = 0 := by omega
    rw [Shape.rowMajor_val_three, Shape.rowMajor_val_one]
    show d.val = (u.val * 1 + w.val) * n + d.val
    simp only [hu, hw, Nat.zero_mul, Nat.zero_add])

/-- A vector of `m` entries viewed as an `[m, 1]` column reads, at `(r, u)`, the operand at `r`. -/
theorem cast_m_m1_apply {m : ℕ} (v : (⟨1, ![m]⟩ : Shape).Idx → α)
    (h : (⟨1, ![m]⟩ : Shape).ShapeCasts ⟨2, ![m, 1]⟩) (r : Fin m) (u : Fin 1) :
    shapeCast ⟨2, ![m, 1]⟩ v h (ix2 r u) = v (ix1 r) :=
  shapeCast_apply v h _ _ (by
    have hu : u.val = 0 := by omega
    rw [Shape.rowMajor_val_two, Shape.rowMajor_val_one]
    show r.val = r.val * 1 + u.val
    rw [hu, Nat.mul_one, Nat.add_zero])

/-- An `[m, 1]` column broadcast along the lanes reads, at `(r, d)`, the column's entry of row `r`. -/
theorem bcast_m1_mn_apply {m n : ℕ} (v : (⟨2, ![m, 1]⟩ : Shape).Idx → α)
    (h : (⟨2, ![m, 1]⟩ : Shape).Broadcasts ⟨2, ![m, n]⟩) (r : Fin m) (d : Fin n) :
    broadcastTo ⟨2, ![m, n]⟩ v h (ix2 r d) = v (ix2 r (0 : Fin 1)) := by
  refine broadcastTo_apply v h (ix2 r d) (ix2 r (0 : Fin 1)) fun ax => ?_
  match ax with
  | ⟨0, _⟩ =>
    show r.val = if m = 1 then 0 else r.val
    split
    · have := r.isLt; omega
    · rfl
  | ⟨1, _⟩ => rfl

/-- Row `i` cut out of an `[a, n]` array reads, at `(0, e)`, the operand at `(i, e)`. -/
theorem row_apply {a n : ℕ} (o : ℕ) (v : (⟨2, ![a, n]⟩ : Shape).Idx → α)
    (h : (⟨2, ![a, n]⟩ : Shape).Slices ![o, 0] ⟨2, ![1, n]⟩) (i : Fin a) (hi : i.val = o) (e : Fin n) :
    extractStridedSlice ⟨2, ![1, n]⟩ ![o, 0] v h (ix2 (0 : Fin 1) e) = v (ix2 i e) :=
  slice2_axis0_apply o v h (0 : Fin 1) e i (by rw [hi]; rfl)

end Layout

/-! ## Sums along one axis of a matrix, at the ideal values -/

section Sums

/-- A sum along the lanes (axis 1) of an `[m, n]` array reads, at row `r`, the sum of that row's entries. -/
theorem laneSum_apply {m n : ℕ} (src : FVec Ideal ⟨2, ![m, n]⟩ .f32)
    (h : (⟨2, ![m, n]⟩ : Shape).Reduces [1] ⟨1, ![m]⟩) (hφ : FKind.Formats .f32)
    (hacc : (0x00000000#32 : BitVec 32) = FKind.add.neutral .f32 hφ) (r : Fin m) :
    multiReduction .add [1] ⟨1, ![m]⟩ src 0x00000000#32 h hφ hacc (ix1 r) = ∑ e : Fin n, src (ix2 r e) := by
  refine (Ideal.multiReduction_add_single src 0x00000000#32 h hφ hacc (ix1 r)).trans ?_
  show ∑ e : Fin n, src (h.lift (ix1 r) e) = ∑ e : Fin n, src (ix2 r e)
  refine Finset.sum_congr rfl fun e _ => congrArg src (funext fun a => Fin.ext ?_)
  match a with
  | ⟨0, _⟩ => rfl
  | ⟨1, _⟩ => rfl

/-- A sum along the rows (axis 0) of an `[m, n]` array reads, at column `d`, the sum of that column's entries. -/
theorem colSum_apply {m n : ℕ} (src : FVec Ideal ⟨2, ![m, n]⟩ .f32)
    (h : (⟨2, ![m, n]⟩ : Shape).Reduces [0] ⟨1, ![n]⟩) (hφ : FKind.Formats .f32)
    (hacc : (0x00000000#32 : BitVec 32) = FKind.add.neutral .f32 hφ) (d : Fin n) :
    multiReduction .add [0] ⟨1, ![n]⟩ src 0x00000000#32 h hφ hacc (ix1 d) = ∑ r : Fin m, src (ix2 r d) := by
  refine (Ideal.multiReduction_add_single src 0x00000000#32 h hφ hacc (ix1 d)).trans ?_
  show ∑ r : Fin m, src (h.lift (ix1 d) r) = ∑ r : Fin m, src (ix2 r d)
  refine Finset.sum_congr rfl fun r _ => congrArg src (funext fun a => Fin.ext ?_)
  match a with
  | ⟨0, _⟩ => rfl
  | ⟨1, _⟩ => rfl

end Sums

/-! ## The two building blocks of a round, at a tile of 5000 rows -/

section Blocks

/-- The score column: each row of `y` against row `i` of `H` (that row cut out, laid over every row of the tile,
    multiplied in and summed along the lanes) is the inner product of the two. -/
theorem score_apply (y : FVec Ideal S5000x256 .f32) (H : FVec Ideal S2x256 .f32) (o : ℕ) (i : Fin 2) (hi : i.val = o)
    (hs : S2x256.Slices ![o, 0] S1x256) (hb : S1x256.Broadcasts S5000x256) (hr : S5000x256.Reduces [1] S5000)
    (hφ : FKind.Formats .f32) (hacc : (0x00000000#32 : BitVec 32) = FKind.add.neutral .f32 hφ) (r : Fin 5000) :
    multiReduction .add [1] S5000 (mulf y (broadcastTo S5000x256 (extractStridedSlice S1x256 ![o, 0] H hs) hb))
        0x00000000#32 hr hφ hacc (ix1 r)
      = dot (fun e => y (ix2 r e)) (fun e => H (ix2 i e)) := by
  refine (laneSum_apply _ hr hφ hacc r).trans ?_
  refine Finset.sum_congr rfl fun e _ => ?_
  refine (mulf_apply _ _ _).trans (congrArg (y (ix2 r e) * ·) ?_)
  exact (broadcastTo_1b_ab_apply _ hb r e).trans (row_apply o H hs i hi e)

/-- The weight column: a score column normalised by its own magnitude (floored at ε), squashed, and laid along the
    lanes, reads at `(r, d)` the gate of row `r`'s score. -/
theorem weight_apply (s : FVec Ideal S5000 .f32) (hc : S5000.ShapeCasts S5000x1) (hb : S5000x1.Broadcasts S5000x256)
    (r : Fin 5000) (d : Fin 256) :
    broadcastTo S5000x256
        (logistic (divf (shapeCast S5000x1 s hc)
          (maximumf (absf (shapeCast S5000x1 s hc)) (broadcast S5000x1 (Scalar.ofBits .f32 0x2B8CBCCC#32))))) hb (ix2 r d)
      = gate (s (ix1 r)) := by
  refine (bcast_m1_mn_apply _ hb r d).trans ?_
  show gate (shapeCast S5000x1 s hc (ix2 r (0 : Fin 1))) = gate (s (ix1 r))
  exact congrArg gate (cast_m_m1_apply s hc r 0)

end Blocks

section Rounds

/-- The score column when the directions first pass through a cast to their own shape (which changes nothing). -/
theorem score_cast_apply (y : FVec Ideal S5000x256 .f32) (H : FVec Ideal S2x256 .f32) (o : ℕ) (i : Fin 2) (hi : i.val = o)
    (hcs : S2x256.ShapeCasts S2x256) (hs : S2x256.Slices ![o, 0] S1x256) (hb : S1x256.Broadcasts S5000x256)
    (hr : S5000x256.Reduces [1] S5000) (hφ : FKind.Formats .f32)
    (hacc : (0x00000000#32 : BitVec 32) = FKind.add.neutral .f32 hφ) (r : Fin 5000) :
    (multiReduction .add [1] S5000
          (mulf y (broadcastTo S5000x256 (extractStridedSlice S1x256 ![o, 0] (shapeCast S2x256 H hcs) hs) hb))
          0x00000000#32 hr hφ hacc) (ix1 r)
      = dot (fun e => y (ix2 r e)) (fun e => H (ix2 i e)) := by
  refine (score_apply y _ o i hi hs hb hr hφ hacc r).trans ?_
  rw [shapeCast_self]

/-- A tile re-weighted by a weight column reads, at `(r, d)`, the entry times the gate of row `r`'s score. -/
theorem weighted_apply (x : FVec Ideal S5000x256 .f32) (s : FVec Ideal S5000 .f32) (hc : S5000.ShapeCasts S5000x1)
    (hb : S5000x1.Broadcasts S5000x256) (r : Fin 5000) (d : Fin 256) :
    mulf x (broadcastTo S5000x256
        (logistic (divf (shapeCast S5000x1 s hc)
          (maximumf (absf (shapeCast S5000x1 s hc)) (broadcast S5000x1 (Scalar.ofBits .f32 0x2B8CBCCC#32))))) hb) (ix2 r d)
      = x (ix2 r d) * gate (s (ix1 r)) :=
  (mulf_apply _ _ _).trans (congrArg (x (ix2 r d) * ·) (weight_apply s hc hb r d))

/-- Round 0's re-weighting of a tile against row `i` of the directions: each row scaled by the gate of its own score. -/
theorem reweigh_apply (x : FVec Ideal S5000x256 .f32) (H : FVec Ideal S2x256 .f32) (o : ℕ) (i : Fin 2) (hi : i.val = o)
    (hcs : S2x256.ShapeCasts S2x256) (hs : S2x256.Slices ![o, 0] S1x256) (hb : S1x256.Broadcasts S5000x256)
    (hr : S5000x256.Reduces [1] S5000) (hφ : FKind.Formats .f32)
    (hacc : (0x00000000#32 : BitVec 32) = FKind.add.neutral .f32 hφ)
    (hc : S5000.ShapeCasts S5000x1) (hbc : S5000x1.Broadcasts S5000x256) (r : Fin 5000) (d : Fin 256) :
    mulf x (broadcastTo S5000x256
        (logistic (divf (shapeCast S5000x1 (multiReduction .add [1] S5000
          (mulf x (broadcastTo S5000x256 (extractStridedSlice S1x256 ![o, 0] (shapeCast S2x256 H hcs) hs) hb))
          0x00000000#32 hr hφ hacc) hc)
          (maximumf (absf (shapeCast S5000x1 (multiReduction .add [1] S5000
          (mulf x (broadcastTo S5000x256 (extractStridedSlice S1x256 ![o, 0] (shapeCast S2x256 H hcs) hs) hb))
          0x00000000#32 hr hφ hacc) hc))
            (broadcast S5000x1 (Scalar.ofBits .f32 0x2B8CBCCC#32))))) hbc) (ix2 r d)
      = x (ix2 r d) * gate (dot (fun e => x (ix2 r e)) (fun e => H (ix2 i e))) :=
  (weighted_apply x _ hc hbc r d).trans
    (congrArg (fun t => x (ix2 r d) * gate t) (score_cast_apply x H o i hi hcs hs hb hr hφ hacc r))

end Rounds

/-! ## The stored values -/

/-- The column-sum kernel's reset block is zero. -/
theorem zero0 (d : Fin 256) : k0_pay1 (F := Ideal) (ix3 (0 : Fin 1) (0 : Fin 1) d) = 0 := Ideal.ofBits_zero_f32
/-- Round 0's reset blocks are zero. -/
theorem zero1a (d : Fin 256) : k1_pay2 (F := Ideal) (ix3 (0 : Fin 1) (0 : Fin 1) d) = 0 := Ideal.ofBits_zero_f32
theorem zero1b (d : Fin 256) : k1_pay3 (F := Ideal) (ix3 (0 : Fin 1) (0 : Fin 1) d) = 0 := Ideal.ofBits_zero_f32
/-- Round 1's reset blocks are zero. -/
theorem zero2a (d : Fin 256) : k2_pay3 (F := Ideal) (ix3 (0 : Fin 1) (0 : Fin 1) d) = 0 := Ideal.ofBits_zero_f32
theorem zero2b (d : Fin 256) : k2_pay4 (F := Ideal) (ix3 (0 : Fin 1) (0 : Fin 1) d) = 0 := Ideal.ofBits_zero_f32

/-- The column-sum kernel adds the tile's column sums to the accumulator. -/
theorem colsum_tile (acc : Vec Ideal S1x1x256 .f32) (blk : Vec Ideal S10000x256 .f32) (d : Fin 256) :
    k0_pay2 (F := Ideal) acc blk (ix3 (0 : Fin 1) (0 : Fin 1) d)
      = acc (ix3 (0 : Fin 1) (0 : Fin 1) d) + ∑ r : Fin 10000, blk (ix2 r d) := by
  unfold k0_pay2
  refine (cast_n_11n_apply _ _ _ _ d).trans ?_
  refine (addf_apply _ _ _).trans ?_
  exact congrArg₂ (· + ·) (cast_11n_n_apply acc _ d) (colSum_apply blk _ _ _ d)

/-- Round 0, head 0: the accumulator plus, over the tile's rows, the row's entry times the gate of its score. -/
theorem round0_head0 (x : Vec Ideal S5000x256 .f32) (h : Vec Ideal S2x256 .f32) (acc : Vec Ideal S1x1x256 .f32)
    (d : Fin 256) :
    k1_pay5 (F := Ideal) x h acc (ix3 (0 : Fin 1) (0 : Fin 1) d)
      = acc (ix3 (0 : Fin 1) (0 : Fin 1) d)
        + ∑ r : Fin 5000, x (ix2 r d) * gate (dot (fun e => x (ix2 r e)) (fun e => h (ix2 (0 : Fin 2) e))) := by
  unfold k1_pay5 k1_pay4
  refine (cast_n_11n_apply _ _ _ _ d).trans ?_
  refine (addf_apply _ _ _).trans ?_
  refine congrArg₂ (· + ·) (cast_11n_n_apply acc _ d) ((colSum_apply _ _ _ _ d).trans ?_)
  refine Finset.sum_congr rfl fun r _ => ?_
  refine (mulf_apply _ _ _).trans (congrArg (x (ix2 r d) * ·) ?_)
  refine (weight_apply _ _ _ r d).trans (congrArg gate ?_)
  refine (score_apply x _ 0 (0 : Fin 2) rfl _ _ _ _ _ r).trans ?_
  rw [shapeCast_self]

/-- Round 0, head 1: the same with row 1 of the directions (its weight column is the value carried out of the
    first part of the body). -/
theorem round0_head1 (x : Vec Ideal S5000x256 .f32) (h : Vec Ideal S2x256 .f32) (acc : Vec Ideal S1x1x256 .f32)
    (d : Fin 256) :
    k1_pay1 (F := Ideal) x (k1_pay6 x h) acc (ix3 (0 : Fin 1) (0 : Fin 1) d)
      = acc (ix3 (0 : Fin 1) (0 : Fin 1) d)
        + ∑ r : Fin 5000, x (ix2 r d) * gate (dot (fun e => x (ix2 r e)) (fun e => h (ix2 (1 : Fin 2) e))) := by
  unfold k1_pay1 k1_pay6 k1_pay4
  refine (cast_n_11n_apply _ _ _ _ d).trans ?_
  refine (addf_apply _ _ _).trans ?_
  refine congrArg₂ (· + ·) (cast_11n_n_apply acc _ d) ((colSum_apply _ _ _ _ d).trans ?_)
  refine Finset.sum_congr rfl fun r _ => ?_
  exact reweigh_apply x h 1 (1 : Fin 2) rfl _ _ _ _ _ _ _ _ r d

/-- Round 1, head 0: with `g r` the gate of row `r`'s score against round 0's direction (round 0's weight, recomputed),
    the accumulator plus, over the tile's rows, the gate of the re-weighted row's score against round 1's direction
    times the re-weighted entry. -/
theorem round1_head0 (x : Vec Ideal S5000x256 .f32) (h0 h1 : Vec Ideal S2x256 .f32) (acc : Vec Ideal S1x1x256 .f32)
    (d : Fin 256) :
    k2_pay1 (F := Ideal) (k2_pay7 x h0 h1 acc) (ix3 (0 : Fin 1) (0 : Fin 1) d)
      = acc (ix3 (0 : Fin 1) (0 : Fin 1) d)
        + ∑ r : Fin 5000,
            gate (dot (fun e => x (ix2 r e) * gate (dot (fun e' => x (ix2 r e')) (fun e' => h0 (ix2 (0 : Fin 2) e'))))
                (fun e => h1 (ix2 (0 : Fin 2) e)))
              * (x (ix2 r d) * gate (dot (fun e' => x (ix2 r e')) (fun e' => h0 (ix2 (0 : Fin 2) e')))) := by
  unfold k2_pay1 k2_pay7 k2_pay5 k2_pay6
  refine (cast_n_11n_apply _ _ _ _ d).trans ?_
  refine (addf_apply _ _ _).trans ?_
  refine congrArg₂ (· + ·) (cast_11n_n_apply acc _ d) ((colSum_apply _ _ _ _ d).trans ?_)
  refine Finset.sum_congr rfl fun r _ => ?_
  refine (mulf_apply _ _ _).trans ?_
  refine congrArg₂ (· * ·) ?_ (reweigh_apply x h0 0 (0 : Fin 2) rfl _ _ _ _ _ _ _ _ r d)
  refine (weight_apply _ _ _ r d).trans (congrArg gate ?_)
  refine (score_cast_apply _ h1 0 (0 : Fin 2) rfl _ _ _ _ _ _ r).trans ?_
  exact congrArg (fun v => dot v (fun e => h1 (ix2 (0 : Fin 2) e)))
    (funext fun e => reweigh_apply x h0 0 (0 : Fin 2) rfl _ _ _ _ _ _ _ _ r e)

/-- Round 1, head 1: the same with row 1 of both directions. -/
theorem round1_head1 (x : Vec Ideal S5000x256 .f32) (h0 h1 : Vec Ideal S2x256 .f32) (acc : Vec Ideal S1x1x256 .f32)
    (d : Fin 256) :
    k2_pay2 (F := Ideal) x (k2_pay5 h0) (k2_pay6 h1) acc (ix3 (0 : Fin 1) (0 : Fin 1) d)
      = acc (ix3 (0 : Fin 1) (0 : Fin 1) d)
        + ∑ r : Fin 5000,
            gate (dot (fun e => x (ix2 r e) * gate (dot (fun e' => x (ix2 r e')) (fun e' => h0 (ix2 (1 : Fin 2) e'))))
                (fun e => h1 (ix2 (1 : Fin 2) e)))
              * (x (ix2 r d) * gate (dot (fun e' => x (ix2 r e')) (fun e' => h0 (ix2 (1 : Fin 2) e')))) := by
  unfold k2_pay2 k2_pay5 k2_pay6
  refine (cast_n_11n_apply _ _ _ _ d).trans ?_
  refine (addf_apply _ _ _).trans ?_
  refine congrArg₂ (· + ·) (cast_11n_n_apply acc _ d) ((colSum_apply _ _ _ _ d).trans ?_)
  refine Finset.sum_congr rfl fun r _ => ?_
  refine (mulf_apply _ _ _).trans ?_
  refine congrArg₂ (· * ·) ?_ (reweigh_apply x h0 1 (1 : Fin 2) rfl _ _ _ _ _ _ _ _ r d)
  refine (weight_apply _ _ _ r d).trans (congrArg gate ?_)
  refine (score_cast_apply _ h1 1 (1 : Fin 2) rfl _ _ _ _ _ _ r).trans ?_
  exact congrArg (fun v => dot v (fun e => h1 (ix2 (1 : Fin 2) e)))
    (funext fun e => reweigh_apply x h0 1 (1 : Fin 2) rfl _ _ _ _ _ _ _ _ r e)

end Cert.Tiles

end
-- ==== Proof.LibSums.lean ====
import Mathlib.Data.EReal.Basic
import Mathlib.Algebra.BigOperators.Fin
import Mathlib.Algebra.BigOperators.Intervals

/-!
  Regrouping a long sum: a sum of `2·J·R` terms taken as two halves, each half as `J` tiles of
  `R` consecutive terms. Addition of extended reals is commutative and associative, so the
  regrouping holds with no finiteness hypothesis.
-/

namespace Cert.Sums

open Finset

variable {M : Type*} [AddCommMonoid M]

/-- `m` tiles of `R` consecutive terms, starting at tile `b`, are the `m·R` terms from `b·R` on. -/
theorem sum_tiles (f : ℕ → M) (R b : ℕ) : ∀ m : ℕ,
    ∑ s ∈ range m, ∑ r ∈ range R, f ((b + s) * R + r) = ∑ n ∈ range (m * R), f (b * R + n)
  | 0 => by simp
  | m + 1 => by
    rw [sum_range_succ, sum_tiles f R b m, Nat.succ_mul, sum_range_add]
    refine congrArg (_ + ·) (sum_congr rfl fun r _ => congrArg f ?_)
    rw [Nat.add_mul, Nat.add_assoc]

/-- The two halves, each tiled, make the whole. -/
theorem halves (f : ℕ → M) (J R : ℕ) :
    (∑ s ∈ range J, ∑ r ∈ range R, f ((J * 0 + s) * R + r)) + (∑ s ∈ range J, ∑ r ∈ range R, f ((J * 1 + s) * R + r))
      = ∑ n ∈ range (J * R + J * R), f n := by
  rw [sum_tiles f R (J * 0) J, sum_tiles f R (J * 1) J, sum_range_add]
  simp only [Nat.mul_zero, Nat.zero_mul, Nat.zero_add, Nat.mul_one]

/-- A function on `Fin N` extended by zero to every natural. -/
def ext {N : ℕ} (u : Fin N → M) (n : ℕ) : M := if h : n < N then u ⟨n, h⟩ else 0

theorem ext_of_lt {N : ℕ} (u : Fin N → M) (n : ℕ) (h : n < N) : ext u n = u ⟨n, h⟩ := dif_pos h

/-- Summed over the first `N` naturals the extension is the sum over `Fin N`. -/
theorem sum_ext {N : ℕ} (u : Fin N → M) : ∑ n ∈ range N, ext u n = ∑ k : Fin N, u k := by
  rw [← Fin.sum_univ_eq_sum_range (ext u) N]
  exact Finset.sum_congr rfl fun k _ => ext_of_lt u k.val k.isLt

/-- A tile's sum over `Fin R` of the terms `t·R + r`, as a sum of the extension over a range. -/
theorem tile_ext {N : ℕ} (u : Fin N → M) (R t : ℕ) (hb : ∀ r : Fin R, t * R + r.val < N) :
    ∑ r : Fin R, u ⟨t * R + r.val, hb r⟩ = ∑ r ∈ range R, ext u (t * R + r) := by
  rw [← Fin.sum_univ_eq_sum_range (fun r => ext u (t * R + r)) R]
  exact Finset.sum_congr rfl fun r _ => (ext_of_lt u _ (hb r)).symm

end Cert.Sums
-- ==== Proof.LibAccumulate.lean ====
import Idealize.ShloMosaic.Lib.Pipeline.Value
import proofs.«156319_j5583457485032_2_alg».proof.Proof.LibSums

/-!
  An accumulator block swept over a grid, in closed form.

  A block that is reset to `0 + M n` at every step `n` that is a multiple of `J` and otherwise
  becomes its previous contents plus `M n` holds, after step `t`, zero plus the sum of the addends
  of the steps of its own run so far: `J·(t / J), …, t`. And the two cores' finished blocks, each a
  sum of `J` tiles of `R` rows, add up to the sum over all `2·J·R` rows.
-/

namespace Cert.Accumulate

open Finset Idealize.ShloMosaic

/-- The closed form of the sweep, entry by entry. -/
theorem closed {ι : Type*} {N : ℕ} (f : (n : ℕ) → n < N → ι → EReal) (J : ℕ) (hJ : 0 < J) (M : ℕ → ι → EReal)
    (h0 : ∀ (n : ℕ) (h : n < N), n % J = 0 → ∀ i, f n h i = 0 + M n i)
    (hs : ∀ (n : ℕ) (h : n + 1 < N), ¬(n + 1) % J = 0 → ∀ i, f (n + 1) h i = f n (Nat.lt_of_succ_lt h) i + M (n + 1) i)
    (t : ℕ) (ht : t < N) (i : ι) :
    f t ht i = 0 + ∑ s ∈ range (t % J + 1), M (J * (t / J) + s) i := by
  have h' : J * (t / J) + t % J < N := by rw [Nat.div_add_mod]; exact ht
  have e := Pipeline.eq_accAt_of_mod (α := ι → EReal) f J (fun n _ => fun i => 0 + M n i)
    (fun n _ acc => fun i => acc i + M n i)
    (fun n h hn => funext (h0 n h hn)) (fun n h hn => funext (hs n h hn)) hJ t ht h'
  rw [e]
  exact Pipeline.accAt_add_apply (fun n _ => fun i => 0 + M n i) (fun n _ acc => fun i => acc i + M n i)
    (fun _ => 0) M (J * (t / J)) (t % J) (fun _ _ => rfl) (fun _ _ _ _ _ _ => rfl) (t % J) (Nat.le_refl _) h' i

/-- The two cores' finished blocks add up to the sum over every row. -/
theorem cores_total {T : ℕ} (u : Fin T → EReal) (J R : ℕ) (hT : J * R + J * R = T) :
    (0 + ∑ s ∈ range J, ∑ r ∈ range R, Sums.ext u ((J * 0 + s) * R + r))
      + (0 + ∑ s ∈ range J, ∑ r ∈ range R, Sums.ext u ((J * 1 + s) * R + r))
      = ∑ k : Fin T, u k := by
  rw [zero_add, zero_add, Sums.halves (Sums.ext u) J R, hT, Sums.sum_ext]

end Cert.Accumulate
-- ==== Proof.ColumnPass.lean ====
import proofs.«156319_j5583457485032_2_alg».proof.Proof.Gen.KernelIdeal.Frame
import proofs.«156319_j5583457485032_2_alg».proof.Proof.BodyValues
import proofs.«156319_j5583457485032_2_alg».proof.Proof.TileValues
import proofs.«156319_j5583457485032_2_alg».proof.Proof.LibAccumulate
import Idealize.ShloMosaic.Lib.Pipeline.Value

noncomputable section

open Idealize.ShloMosaic Idealize.ShloMosaic.TcCoe Idealize.SL.Sem
open Idealize.ShloMosaic.Pipeline (Dat)

/-!
  The first kernel region: the column sums of the rows, one partial sum per core.

  The grid is 2 × 10. Step `t = 10·c + i` loads rows `10000·t … 10000·t + 9999` and adds their
  column sums into core `c`'s block (reset at `i = 0`, written back after `i = 9`). So the result
  array, of shape [2, 1, 256], ends with entry `(c, 0, d)` the sum of column `d` over core `c`'s
  100000 rows, taken as 10 tiles of 10000.
-/
namespace Cert.KernelIdeal.ColumnPass
open Cert.KernelIdeal Cert.KernelIdeal.Gen ValueIdx Finset

variable (V : (c : Dev nD) → (b : Ref sig .tc) → Buf (Elt Ideal) ((c : Thread nD τ).loc b))

/-- Where the input tile and the output block sit, decided over the grid. -/
theorem idx_in : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_out : ∀ t : Fin cfg0.N, win0_1.index t (0 : Fin 3) = t.val / 10 ∧ win0_1.index t (1 : Fin 3) = 0
    ∧ win0_1.index t (2 : Fin 3) = 0 :=
  (by decide +kernel : ∀ t : Fin grid0.N, win0_1.index t (0 : Fin 3) = t.val / 10 ∧ win0_1.index t (1 : Fin 3) = 0
    ∧ win0_1.index t (2 : Fin 3) = 0)

/-- The rows as the region finds them. -/
abbrev X (c : Dev nD) : (⟨2, ![200000, 256]⟩ : Shape).Idx → EReal := V c main_arg0

/-- The tile of rows step `t` loads. -/
abbrev tile (c : Dev nD) (t : Fin cfg0.N) : Vec Ideal S10000x256 .f32 := iblk0 V c 0 t

/-- Row `r` of the tile of step `t` is row `10000·t + r` of the array. -/
theorem tile_row (c : Dev nD) (t : Fin cfg0.N) (r : Fin 10000) (e : Fin 256) (hb : t.val * 10000 + r.val < 200000) :
    tile V c t (ix2 r e) = X V c (ix2 ⟨t.val * 10000 + r.val, hb⟩ e) := by
  unfold tile iblk0
  rw [View.read_apply]
  show V c main_arg0 _ = V c main_arg0 _
  refine congrArg (V c main_arg0) (funext fun a => Fin.ext ?_)
  match a with
  | ⟨0, _⟩ => show win0_0.index t (0 : Fin 2) * 10000 + 1 * r.val = t.val * 10000 + r.val; rw [(idx_in t).1]; omega
  | ⟨1, _⟩ => show win0_0.index t (1 : Fin 2) * 256 + 1 * e.val = e.val; rw [(idx_in t).2]; omega

/-- Step `n`'s addend to column `d`: the sum of column `d` over the step's 10000 rows. -/
def addend (c : Dev nD) (n : ℕ) (d : Fin 256) : EReal :=
  ∑ r ∈ range 10000, Sums.ext (fun k : Fin 200000 => X V c (ix2 k d)) (n * 10000 + r)

theorem tile_addend (c : Dev nD) (t : Fin cfg0.N) (d : Fin 256) :
    ∑ r : Fin 10000, tile V c t (ix2 r d) = addend V c t.val d := by
  have hN : cfg0.N = 20 := N_0
  have hb : ∀ r : Fin 10000, t.val * 10000 + r.val < 200000 := fun r => by
    have := t.isLt; have := r.isLt; omega
  rw [addend, ← Sums.tile_ext (fun k : Fin 200000 => X V c (ix2 k d)) 10000 t.val hb]
  exact Finset.sum_congr rfl fun r _ => tile_row V c t r d (hb r)

/-- The block after step `t`: zero plus the addends of core `t / 10`'s steps so far. -/
theorem sweep (c : Dev nD) (t : ℕ) (ht : t < cfg0.N) (d : Fin 256) :
    outsAt0 V c t ht (ix3 (0 : Fin 1) (0 : Fin 1) d) = 0 + ∑ s ∈ range (t % 10 + 1), addend V c (10 * (t / 10) + s) d :=
  Accumulate.closed (fun n h d => outsAt0 V c n h (ix3 (0 : Fin 1) (0 : Fin 1) d)) 10 (by decide) (addend V c)
    (fun n h hn d => by
      show outsAt0 V c (⟨n, h⟩ : Fin cfg0.N).val (⟨n, h⟩ : Fin cfg0.N).isLt _ = _
      rw [outsAt0_A V c ⟨n, h⟩ hn, BodyValues.colsum_first]
      refine (Tiles.colsum_tile _ (tile V c ⟨n, h⟩) d).trans ?_
      rw [Tiles.zero0, tile_addend])
    (fun n h hn d => by
      show outsAt0 V c (⟨n + 1, h⟩ : Fin cfg0.N).val (⟨n + 1, h⟩ : Fin cfg0.N).isLt _ = _
      rw [outsAt0_B V c ⟨n + 1, h⟩ hn, BodyValues.colsum_later]
      refine (Tiles.colsum_tile _ (tile V c ⟨n + 1, h⟩) d).trans ?_
      rw [tile_addend]
      rfl)
    t ht d

/-- What the result array ends holding: entry `(q, 0, d)` is zero plus core `q`'s ten tiles' column sums. -/
def partials (c : Dev nD) : S2x1x256.Idx → EReal := fun i =>
  0 + ∑ s ∈ range 10, addend V c (10 * (i 0).val + s) (i 2)

/-- A write-back writes the finished block of its core. -/
theorem flushed_eq (c : Dev nD) (t : Fin cfg0.N) (hf : (cfg0.win 1).flush t = true) :
    (dat0 V c).flushed 1 t = ((cfg0.win 1).blk t).view.read (Elt Ideal) (partials V c) := by
  have h9 : t.val % 10 = 9 := (flush0_1 t).mp hf
  show (cfg0.win 1).cut (grid0.coords t) ((dat0 V c).after 1 t) = _
  rw [after0_1]
  funext j
  show outsAt0 V c t.val t.isLt j = partials V c (((cfg0.win 1).blk t).view.emb j)
  have h0 : (j 0).val < 1 := (j 0).isLt
  have h1 : (j 1).val < 1 := (j 1).isLt
  have h2 : (j 2).val < 256 := (j 2).isLt
  have hj : (j : S1x1x256.Idx) = ix3 (0 : Fin 1) (0 : Fin 1) (⟨(j 2).val, h2⟩ : Fin 256) := funext fun a => by
    match a with
    | ⟨0, _⟩ => exact Fin.ext (by show (j 0).val = 0; omega)
    | ⟨1, _⟩ => exact Fin.ext (by show (j 1).val = 0; omega)
    | ⟨2, _⟩ => rfl
  have e0 : ((((cfg0.win 1).blk t).view.emb j) 0).val = t.val / 10 := by
    show win0_1.index t (0 : Fin 3) * 1 + 1 * (j 0).val = _
    rw [(idx_out t).1]; omega
  have e2 : ((((cfg0.win 1).blk t).view.emb j) 2 : Fin 256) = ⟨(j 2).val, h2⟩ := Fin.ext (by
    show win0_1.index t (2 : Fin 3) * 256 + 1 * (j 2).val = (j 2).val
    rw [(idx_out t).2.2]; omega)
  refine (congrArg (outsAt0 V c t.val t.isLt) hj).trans ?_
  rw [sweep V c t.val t.isLt ⟨(j 2).val, h2⟩, h9]
  unfold partials
  refine congrArg (0 + ·) (Finset.sum_congr rfl fun s _ => ?_)
  exact congrArg₂ (addend V c) (by rw [e0]) e2.symm

/-- Every entry of the result array is in the block some write-back writes. -/
theorem cover (i : S2x1x256.Idx) :
    ∃ t : Fin cfg0.N, (cfg0.win 1).flush t = true ∧ i ∈ ((cfg0.win 1).blk t).view.set := by
  have hN : cfg0.N = 20 := N_0
  have h0 : (i 0).val < 2 := (i 0).isLt
  have h1 : (i 1).val < 1 := (i 1).isLt
  have h2 : (i 2).val < 256 := (i 2).isLt
  have ht : 10 * (i 0).val + 9 < cfg0.N := by omega
  obtain ⟨q0, q1, q2⟩ := idx_out ⟨10 * (i 0).val + 9, ht⟩
  refine ⟨⟨10 * (i 0).val + 9, ht⟩, (flush0_1 _).mpr (by show (10 * (i 0).val + 9) % 10 = 9; omega), ?_⟩
  show i ∈ ((View.whole main_v0).slice (win0_1.rect ⟨10 * (i 0).val + 9, ht⟩)).set
  rw [View.set_slice_whole, Rect.mem_set_unit]
  intro a
  match a with
  | ⟨0, _⟩ =>
    show win0_1.index ⟨10 * (i 0).val + 9, ht⟩ (0 : Fin 3) * 1 ≤ (i 0).val
      ∧ (i 0).val < win0_1.index ⟨10 * (i 0).val + 9, ht⟩ (0 : Fin 3) * 1 + 1
    rw [q0]; show (10 * (i 0).val + 9) / 10 * 1 ≤ (i 0).val ∧ (i 0).val < (10 * (i 0).val + 9) / 10 * 1 + 1; omega
  | ⟨1, _⟩ =>
    show win0_1.index ⟨10 * (i 0).val + 9, ht⟩ (1 : Fin 3) * 1 ≤ (i 1).val
      ∧ (i 1).val < win0_1.index ⟨10 * (i 0).val + 9, ht⟩ (1 : Fin 3) * 1 + 1
    rw [q1]; omega
  | ⟨2, _⟩ =>
    show win0_1.index ⟨10 * (i 0).val + 9, ht⟩ (2 : Fin 3) * 256 ≤ (i 2).val
      ∧ (i 2).val < win0_1.index ⟨10 * (i 0).val + 9, ht⟩ (2 : Fin 3) * 256 + 256
    rw [q2]; omega

/-- The result array after the region. -/
theorem final (c : Dev nD) : (dat0 V c).arrAt 1 cfg0.N = partials V c :=
  (dat0 V c).arrAt_eq_of_cover 1 (partials V c) (flushed_eq V c) (cover)

end Cert.KernelIdeal.ColumnPass
end
-- ==== Proof.Round0Pass.lean ====
import proofs.«156319_j5583457485032_2_alg».proof.Proof.Gen.KernelIdeal.Frame
import proofs.«156319_j5583457485032_2_alg».proof.Proof.BodyValues
import proofs.«156319_j5583457485032_2_alg».proof.Proof.TileValues
import proofs.«156319_j5583457485032_2_alg».proof.Proof.LibAccumulate
import Idealize.ShloMosaic.Lib.Pipeline.Value

noncomputable section

open Idealize.ShloMosaic Idealize.ShloMosaic.TcCoe Idealize.SL.Sem
open Idealize.ShloMosaic.Pipeline (Dat)

/-!
  The second kernel region: round 0 of both heads, one partial sum per core and head.

  The grid is 2 × 20. Step `t = 20·c + i` loads rows `5000·t … 5000·t + 4999` and the two heads'
  directions `h` (a [2, 256] matrix, the same at every step); for head `q` it adds, into core `c`'s
  block, the sum over the tile's rows `n` of `x n d · gate ⟨x n, h q⟩` (reset at `i = 0`, written
  back after `i = 19`). So head `q`'s result array, of shape [2, 1, 256], ends with entry `(c, 0, d)`
  that sum over core `c`'s 100000 rows, taken as 20 tiles of 5000.
-/
namespace Cert.KernelIdeal.Round0Pass
open Cert.KernelIdeal Cert.KernelIdeal.Gen ValueIdx Finset Cert.Attn

variable (V : (c : Dev nD) → (b : Ref sig .tc) → Buf (Elt Ideal) ((c : Thread nD τ).loc b))

/-- Where the tiles and the blocks sit, decided over the grid. -/
theorem idx_in : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
theorem idx_dir : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)
theorem idx_out0 : ∀ t : Fin cfg1.N, win1_2.index t (0 : Fin 3) = t.val / 20 ∧ win1_2.index t (1 : Fin 3) = 0
    ∧ win1_2.index t (2 : Fin 3) = 0 :=
  (by decide +kernel : ∀ t : Fin grid1.N, win1_2.index t (0 : Fin 3) = t.val / 20 ∧ win1_2.index t (1 : Fin 3) = 0
    ∧ win1_2.index t (2 : Fin 3) = 0)
theorem idx_out1 : ∀ t : Fin cfg1.N, win1_3.index t (0 : Fin 3) = t.val / 20 ∧ win1_3.index t (1 : Fin 3) = 0
    ∧ win1_3.index t (2 : Fin 3) = 0 :=
  (by decide +kernel : ∀ t : Fin grid1.N, win1_3.index t (0 : Fin 3) = t.val / 20 ∧ win1_3.index t (1 : Fin 3) = 0
    ∧ win1_3.index t (2 : Fin 3) = 0)

/-- The rows and the directions as the region finds them. -/
abbrev X (c : Dev nD) : (⟨2, ![200000, 256]⟩ : Shape).Idx → EReal := V c main_arg0
abbrev H (c : Dev nD) : (⟨2, ![2, 256]⟩ : Shape).Idx → EReal := V c main_v17

/-- The tile of rows and the directions step `t` loads. -/
abbrev tile (c : Dev nD) (t : Fin cfg1.N) : Vec Ideal S5000x256 .f32 := iblk1 V c 0 t
abbrev dirblk (c : Dev nD) (t : Fin cfg1.N) : Vec Ideal S2x256 .f32 := iblk1 V c 1 t

/-- Row `r` of the tile of step `t` is row `5000·t + r` of the array. -/
theorem tile_row (c : Dev nD) (t : Fin cfg1.N) (r : Fin 5000) (e : Fin 256) (hb : t.val * 5000 + r.val < 200000) :
    tile V c t (ix2 r e) = X V c (ix2 ⟨t.val * 5000 + r.val, hb⟩ e) := by
  unfold tile iblk1
  rw [View.read_apply]
  show V c main_arg0 _ = V c main_arg0 _
  refine congrArg (V c main_arg0) (funext fun a => Fin.ext ?_)
  match a with
  | ⟨0, _⟩ => show win1_0.index t (0 : Fin 2) * 5000 + 1 * r.val = t.val * 5000 + r.val; rw [(idx_in t).1]; omega
  | ⟨1, _⟩ => show win1_0.index t (1 : Fin 2) * 256 + 1 * e.val = e.val; rw [(idx_in t).2]; omega

/-- The loaded directions are the whole directions array. -/
theorem dir_entry (c : Dev nD) (t : Fin cfg1.N) (q : Fin 2) (e : Fin 256) :
    dirblk V c t (ix2 q e) = H V c (ix2 q e) := by
  unfold dirblk iblk1
  rw [View.read_apply]
  show V c main_v17 _ = V c main_v17 _
  refine congrArg (V c main_v17) (funext fun a => Fin.ext ?_)
  match a with
  | ⟨0, _⟩ => show win1_1.index t (0 : Fin 2) * 2 + 1 * q.val = q.val; rw [(idx_dir t).1]; omega
  | ⟨1, _⟩ => show win1_1.index t (1 : Fin 2) * 256 + 1 * e.val = e.val; rw [(idx_dir t).2]; omega

/-- Row `k`'s term of head `q`'s column `d`: the row's entry times the row's weight. -/
def term (c : Dev nD) (q : Fin 2) (d : Fin 256) (k : Fin 200000) : EReal :=
  rowsOf (X V c) k d * gate (dot (rowsOf (X V c) k) (fun e => H V c (ix2 q e)))

/-- Step `n`'s addend to head `q`'s column `d`. -/
def addend (c : Dev nD) (q : Fin 2) (n : ℕ) (d : Fin 256) : EReal :=
  ∑ r ∈ range 5000, Sums.ext (term V c q d) (n * 5000 + r)

theorem tile_addend (c : Dev nD) (q : Fin 2) (t : Fin cfg1.N) (d : Fin 256) :
    ∑ r : Fin 5000, tile V c t (ix2 r d)
        * gate (dot (fun e => tile V c t (ix2 r e)) (fun e => dirblk V c t (ix2 q e)))
      = addend V c q t.val d := by
  have hN : cfg1.N = 40 := N_1
  have hb : ∀ r : Fin 5000, t.val * 5000 + r.val < 200000 := fun r => by
    have := t.isLt; have := r.isLt; omega
  rw [addend, ← Sums.tile_ext (term V c q d) 5000 t.val hb]
  refine Finset.sum_congr rfl fun r _ => ?_
  have hrow : (fun e => tile V c t (ix2 r e)) = rowsOf (X V c) ⟨t.val * 5000 + r.val, hb r⟩ :=
    funext fun e => tile_row V c t r e (hb r)
  have hdir : (fun e => dirblk V c t (ix2 q e)) = fun e => H V c (ix2 q e) := funext fun e => dir_entry V c t q e
  rw [hrow, hdir, tile_row V c t r d (hb r)]
  rfl

/-- What head `q`'s result array ends holding. -/
def partials (c : Dev nD) (q : Fin 2) : S2x1x256.Idx → EReal := fun i =>
  0 + ∑ s ∈ range 20, addend V c q (20 * (i 0).val + s) (i 2)

/-! ### Head 0 -/

theorem sweep0 (c : Dev nD) (t : ℕ) (ht : t < cfg1.N) (d : Fin 256) :
    (outsAt1 V c t ht).1 (ix3 (0 : Fin 1) (0 : Fin 1) d)
      = 0 + ∑ s ∈ range (t % 20 + 1), addend V c 0 (20 * (t / 20) + s) d :=
  Accumulate.closed (fun n h d => (outsAt1 V c n h).1 (ix3 (0 : Fin 1) (0 : Fin 1) d)) 20 (by decide) (addend V c 0)
    (fun n h hn d => by
      refine (congrFun (congrArg Prod.fst (outsAt1_A V c ⟨n, h⟩ hn)) _).trans ?_
      dsimp only
      rw [BodyValues.round0_first_head0]
      refine (Tiles.round0_head0 (tile V c ⟨n, h⟩) (dirblk V c ⟨n, h⟩) _ d).trans ?_
      rw [Tiles.zero1a, tile_addend])
    (fun n h hn d => by
      refine (congrFun (congrArg Prod.fst (outsAt1_B V c ⟨n + 1, h⟩ hn)) _).trans ?_
      dsimp only
      rw [BodyValues.round0_later_head0]
      refine (Tiles.round0_head0 (tile V c ⟨n + 1, h⟩) (dirblk V c ⟨n + 1, h⟩) _ d).trans ?_
      rw [tile_addend]
      rfl)
    t ht d

/-- A write-back of head 0's window writes the finished block of its core. -/
theorem flushed_eq0 (c : Dev nD) (t : Fin cfg1.N) (hf : (cfg1.win 2).flush t = true) :
    (dat1 V c).flushed 2 t = ((cfg1.win 2).blk t).view.read (Elt Ideal) (partials V c 0) := by
  have h19 : t.val % 20 = 19 := (flush1_2 t).mp hf
  show (cfg1.win 2).cut (grid1.coords t) ((dat1 V c).after 2 t) = _
  rw [after1_2]
  funext j
  show (outsAt1 V c t.val t.isLt).1 j = partials V c 0 (((cfg1.win 2).blk t).view.emb j)
  have h0 : (j 0).val < 1 := (j 0).isLt
  have h1 : (j 1).val < 1 := (j 1).isLt
  have h2 : (j 2).val < 256 := (j 2).isLt
  have hj : (j : S1x1x256.Idx) = ix3 (0 : Fin 1) (0 : Fin 1) (⟨(j 2).val, h2⟩ : Fin 256) := funext fun a => by
    match a with
    | ⟨0, _⟩ => exact Fin.ext (by show (j 0).val = 0; omega)
    | ⟨1, _⟩ => exact Fin.ext (by show (j 1).val = 0; omega)
    | ⟨2, _⟩ => rfl
  have e0 : ((((cfg1.win 2).blk t).view.emb j) 0).val = t.val / 20 := by
    show win1_2.index t (0 : Fin 3) * 1 + 1 * (j 0).val = _
    rw [(idx_out0 t).1]; omega
  have e2 : ((((cfg1.win 2).blk t).view.emb j) 2 : Fin 256) = ⟨(j 2).val, h2⟩ := Fin.ext (by
    show win1_2.index t (2 : Fin 3) * 256 + 1 * (j 2).val = (j 2).val
    rw [(idx_out0 t).2.2]; omega)
  refine (congrArg (outsAt1 V c t.val t.isLt).1 hj).trans ?_
  rw [sweep0 V c t.val t.isLt ⟨(j 2).val, h2⟩, h19]
  unfold partials
  refine congrArg (0 + ·) (Finset.sum_congr rfl fun s _ => ?_)
  exact congrArg₂ (addend V c 0) (by rw [e0]) e2.symm

/-- Every entry of head 0's result array is in the block some write-back writes. -/
theorem cover0 (i : S2x1x256.Idx) :
    ∃ t : Fin cfg1.N, (cfg1.win 2).flush t = true ∧ i ∈ ((cfg1.win 2).blk t).view.set := by
  have hN : cfg1.N = 40 := N_1
  have h0 : (i 0).val < 2 := (i 0).isLt
  have h1 : (i 1).val < 1 := (i 1).isLt
  have h2 : (i 2).val < 256 := (i 2).isLt
  have ht : 20 * (i 0).val + 19 < cfg1.N := by omega
  obtain ⟨q0, q1, q2⟩ := idx_out0 ⟨20 * (i 0).val + 19, ht⟩
  refine ⟨⟨20 * (i 0).val + 19, ht⟩, (flush1_2 _).mpr (by show (20 * (i 0).val + 19) % 20 = 19; omega), ?_⟩
  show i ∈ ((View.whole main_v18_0).slice (win1_2.rect ⟨20 * (i 0).val + 19, ht⟩)).set
  rw [View.set_slice_whole, Rect.mem_set_unit]
  intro a
  match a with
  | ⟨0, _⟩ =>
    show win1_2.index ⟨20 * (i 0).val + 19, ht⟩ (0 : Fin 3) * 1 ≤ (i 0).val
      ∧ (i 0).val < win1_2.index ⟨20 * (i 0).val + 19, ht⟩ (0 : Fin 3) * 1 + 1
    rw [q0]; show (20 * (i 0).val + 19) / 20 * 1 ≤ (i 0).val ∧ (i 0).val < (20 * (i 0).val + 19) / 20 * 1 + 1; omega
  | ⟨1, _⟩ =>
    show win1_2.index ⟨20 * (i 0).val + 19, ht⟩ (1 : Fin 3) * 1 ≤ (i 1).val
      ∧ (i 1).val < win1_2.index ⟨20 * (i 0).val + 19, ht⟩ (1 : Fin 3) * 1 + 1
    rw [q1]; omega
  | ⟨2, _⟩ =>
    show win1_2.index ⟨20 * (i 0).val + 19, ht⟩ (2 : Fin 3) * 256 ≤ (i 2).val
      ∧ (i 2).val < win1_2.index ⟨20 * (i 0).val + 19, ht⟩ (2 : Fin 3) * 256 + 256
    rw [q2]; omega

/-- Head 0's result array after the region. -/
theorem final0 (c : Dev nD) : (dat1 V c).arrAt 2 cfg1.N = partials V c 0 :=
  (dat1 V c).arrAt_eq_of_cover 2 (partials V c 0) (flushed_eq0 V c) cover0

/-! ### Head 1 -/

theorem sweep1 (c : Dev nD) (t : ℕ) (ht : t < cfg1.N) (d : Fin 256) :
    (outsAt1 V c t ht).2 (ix3 (0 : Fin 1) (0 : Fin 1) d)
      = 0 + ∑ s ∈ range (t % 20 + 1), addend V c 1 (20 * (t / 20) + s) d :=
  Accumulate.closed (fun n h d => (outsAt1 V c n h).2 (ix3 (0 : Fin 1) (0 : Fin 1) d)) 20 (by decide) (addend V c 1)
    (fun n h hn d => by
      refine (congrFun (congrArg Prod.snd (outsAt1_A V c ⟨n, h⟩ hn)) _).trans ?_
      dsimp only
      rw [BodyValues.round0_first_head1]
      refine (Tiles.round0_head1 (tile V c ⟨n, h⟩) (dirblk V c ⟨n, h⟩) _ d).trans ?_
      rw [Tiles.zero1b, tile_addend])
    (fun n h hn d => by
      refine (congrFun (congrArg Prod.snd (outsAt1_B V c ⟨n + 1, h⟩ hn)) _).trans ?_
      dsimp only
      rw [BodyValues.round0_later_head1]
      refine (Tiles.round0_head1 (tile V c ⟨n + 1, h⟩) (dirblk V c ⟨n + 1, h⟩) _ d).trans ?_
      rw [tile_addend]
      rfl)
    t ht d

/-- A write-back of head 1's window writes the finished block of its core. -/
theorem flushed_eq1 (c : Dev nD) (t : Fin cfg1.N) (hf : (cfg1.win 3).flush t = true) :
    (dat1 V c).flushed 3 t = ((cfg1.win 3).blk t).view.read (Elt Ideal) (partials V c 1) := by
  have h19 : t.val % 20 = 19 := (flush1_3 t).mp hf
  show (cfg1.win 3).cut (grid1.coords t) ((dat1 V c).after 3 t) = _
  rw [after1_3]
  funext j
  show (outsAt1 V c t.val t.isLt).2 j = partials V c 1 (((cfg1.win 3).blk t).view.emb j)
  have h0 : (j 0).val < 1 := (j 0).isLt
  have h1 : (j 1).val < 1 := (j 1).isLt
  have h2 : (j 2).val < 256 := (j 2).isLt
  have hj : (j : S1x1x256.Idx) = ix3 (0 : Fin 1) (0 : Fin 1) (⟨(j 2).val, h2⟩ : Fin 256) := funext fun a => by
    match a with
    | ⟨0, _⟩ => exact Fin.ext (by show (j 0).val = 0; omega)
    | ⟨1, _⟩ => exact Fin.ext (by show (j 1).val = 0; omega)
    | ⟨2, _⟩ => rfl
  have e0 : ((((cfg1.win 3).blk t).view.emb j) 0).val = t.val / 20 := by
    show win1_3.index t (0 : Fin 3) * 1 + 1 * (j 0).val = _
    rw [(idx_out1 t).1]; omega
  have e2 : ((((cfg1.win 3).blk t).view.emb j) 2 : Fin 256) = ⟨(j 2).val, h2⟩ := Fin.ext (by
    show win1_3.index t (2 : Fin 3) * 256 + 1 * (j 2).val = (j 2).val
    rw [(idx_out1 t).2.2]; omega)
  refine (congrArg (outsAt1 V c t.val t.isLt).2 hj).trans ?_
  rw [sweep1 V c t.val t.isLt ⟨(j 2).val, h2⟩, h19]
  unfold partials
  refine congrArg (0 + ·) (Finset.sum_congr rfl fun s _ => ?_)
  exact congrArg₂ (addend V c 1) (by rw [e0]) e2.symm

/-- Every entry of head 1's result array is in the block some write-back writes. -/
theorem cover1 (i : S2x1x256.Idx) :
    ∃ t : Fin cfg1.N, (cfg1.win 3).flush t = true ∧ i ∈ ((cfg1.win 3).blk t).view.set := by
  have hN : cfg1.N = 40 := N_1
  have h0 : (i 0).val < 2 := (i 0).isLt
  have h1 : (i 1).val < 1 := (i 1).isLt
  have h2 : (i 2).val < 256 := (i 2).isLt
  have ht : 20 * (i 0).val + 19 < cfg1.N := by omega
  obtain ⟨q0, q1, q2⟩ := idx_out1 ⟨20 * (i 0).val + 19, ht⟩
  refine ⟨⟨20 * (i 0).val + 19, ht⟩, (flush1_3 _).mpr (by show (20 * (i 0).val + 19) % 20 = 19; omega), ?_⟩
  show i ∈ ((View.whole main_v18_1).slice (win1_3.rect ⟨20 * (i 0).val + 19, ht⟩)).set
  rw [View.set_slice_whole, Rect.mem_set_unit]
  intro a
  match a with
  | ⟨0, _⟩ =>
    show win1_3.index ⟨20 * (i 0).val + 19, ht⟩ (0 : Fin 3) * 1 ≤ (i 0).val
      ∧ (i 0).val < win1_3.index ⟨20 * (i 0).val + 19, ht⟩ (0 : Fin 3) * 1 + 1
    rw [q0]; show (20 * (i 0).val + 19) / 20 * 1 ≤ (i 0).val ∧ (i 0).val < (20 * (i 0).val + 19) / 20 * 1 + 1; omega
  | ⟨1, _⟩ =>
    show win1_3.index ⟨20 * (i 0).val + 19, ht⟩ (1 : Fin 3) * 1 ≤ (i 1).val
      ∧ (i 1).val < win1_3.index ⟨20 * (i 0).val + 19, ht⟩ (1 : Fin 3) * 1 + 1
    rw [q1]; omega
  | ⟨2, _⟩ =>
    show win1_3.index ⟨20 * (i 0).val + 19, ht⟩ (2 : Fin 3) * 256 ≤ (i 2).val
      ∧ (i 2).val < win1_3.index ⟨20 * (i 0).val + 19, ht⟩ (2 : Fin 3) * 256 + 256
    rw [q2]; omega

/-- Head 1's result array after the region. -/
theorem final1 (c : Dev nD) : (dat1 V c).arrAt 3 cfg1.N = partials V c 1 :=
  (dat1 V c).arrAt_eq_of_cover 3 (partials V c 1) (flushed_eq1 V c) cover1

end Cert.KernelIdeal.Round0Pass
end
-- ==== Proof.Round1Pass.lean ====
import proofs.«156319_j5583457485032_2_alg».proof.Proof.Gen.KernelIdeal.Frame
import proofs.«156319_j5583457485032_2_alg».proof.Proof.BodyValues
import proofs.«156319_j5583457485032_2_alg».proof.Proof.TileValues
import proofs.«156319_j5583457485032_2_alg».proof.Proof.LibAccumulate
import Idealize.ShloMosaic.Lib.Pipeline.Value

noncomputable section

open Idealize.ShloMosaic Idealize.ShloMosaic.TcCoe Idealize.SL.Sem
open Idealize.ShloMosaic.Pipeline (Dat)

/-!
  The third kernel region: round 1 of both heads, one partial sum per core and head.

  The grid is 2 × 20. Step `t = 20·c + i` loads rows `5000·t … 5000·t + 4999` and both rounds'
  directions `h₀`, `h₁` (two [2, 256] matrices, the same at every step). For head `q` it recomputes
  round 0's weight `g n = gate ⟨x n, h₀ q⟩` of each row, re-weights the row, scores it against
  `h₁ q`, and adds `gate ⟨x n · g n, h₁ q⟩ · (x n d · g n)` over the tile's rows into core `c`'s block
  (reset at `i = 0`, written back after `i = 19`). So head `q`'s result array, of shape [2, 1, 256],
  ends with entry `(c, 0, d)` that sum over core `c`'s 100000 rows, taken as 20 tiles of 5000.
-/
namespace Cert.KernelIdeal.Round1Pass
open Cert.KernelIdeal Cert.KernelIdeal.Gen ValueIdx Finset Cert.Attn

variable (V : (c : Dev nD) → (b : Ref sig .tc) → Buf (Elt Ideal) ((c : Thread nD τ).loc b))

/-- Where the tiles and the blocks sit, decided over the grid. -/
theorem idx_in : ∀ t : Fin cfg2.N, win2_0.index t (0 : Fin 2) = t.val ∧ win2_0.index t (1 : Fin 2) = 0 :=
  (by decide +kernel : ∀ t : Fin grid2.N, win2_0.index t (0 : Fin 2) = t.val ∧ win2_0.index t (1 : Fin 2) = 0)
theorem idx_dir0 : ∀ t : Fin cfg2.N, win2_1.index t (0 : Fin 2) = 0 ∧ win2_1.index t (1 : Fin 2) = 0 :=
  (by decide +kernel : ∀ t : Fin grid2.N, win2_1.index t (0 : Fin 2) = 0 ∧ win2_1.index t (1 : Fin 2) = 0)
theorem idx_dir1 : ∀ t : Fin cfg2.N, win2_2.index t (0 : Fin 2) = 0 ∧ win2_2.index t (1 : Fin 2) = 0 :=
  (by decide +kernel : ∀ t : Fin grid2.N, win2_2.index t (0 : Fin 2) = 0 ∧ win2_2.index t (1 : Fin 2) = 0)
theorem idx_out0 : ∀ t : Fin cfg2.N, win2_3.index t (0 : Fin 3) = t.val / 20 ∧ win2_3.index t (1 : Fin 3) = 0
    ∧ win2_3.index t (2 : Fin 3) = 0 :=
  (by decide +kernel : ∀ t : Fin grid2.N, win2_3.index t (0 : Fin 3) = t.val / 20 ∧ win2_3.index t (1 : Fin 3) = 0
    ∧ win2_3.index t (2 : Fin 3) = 0)
theorem idx_out1 : ∀ t : Fin cfg2.N, win2_4.index t (0 : Fin 3) = t.val / 20 ∧ win2_4.index t (1 : Fin 3) = 0
    ∧ win2_4.index t (2 : Fin 3) = 0 :=
  (by decide +kernel : ∀ t : Fin grid2.N, win2_4.index t (0 : Fin 3) = t.val / 20 ∧ win2_4.index t (1 : Fin 3) = 0
    ∧ win2_4.index t (2 : Fin 3) = 0)

/-- The rows and the two rounds' directions as the region finds them. -/
abbrev X (c : Dev nD) : (⟨2, ![200000, 256]⟩ : Shape).Idx → EReal := V c main_arg0
abbrev H0 (c : Dev nD) : (⟨2, ![2, 256]⟩ : Shape).Idx → EReal := V c main_v17
abbrev H1 (c : Dev nD) : (⟨2, ![2, 256]⟩ : Shape).Idx → EReal := V c main_v43

/-- The tile of rows and the directions step `t` loads. -/
abbrev tile (c : Dev nD) (t : Fin cfg2.N) : Vec Ideal S5000x256 .f32 := iblk2 V c 0 t
abbrev dir0blk (c : Dev nD) (t : Fin cfg2.N) : Vec Ideal S2x256 .f32 := iblk2 V c 1 t
abbrev dir1blk (c : Dev nD) (t : Fin cfg2.N) : Vec Ideal S2x256 .f32 := iblk2 V c 2 t

/-- Row `r` of the tile of step `t` is row `5000·t + r` of the array. -/
theorem tile_row (c : Dev nD) (t : Fin cfg2.N) (r : Fin 5000) (e : Fin 256) (hb : t.val * 5000 + r.val < 200000) :
    tile V c t (ix2 r e) = X V c (ix2 ⟨t.val * 5000 + r.val, hb⟩ e) := by
  unfold tile iblk2
  rw [View.read_apply]
  show V c main_arg0 _ = V c main_arg0 _
  refine congrArg (V c main_arg0) (funext fun a => Fin.ext ?_)
  match a with
  | ⟨0, _⟩ => show win2_0.index t (0 : Fin 2) * 5000 + 1 * r.val = t.val * 5000 + r.val; rw [(idx_in t).1]; omega
  | ⟨1, _⟩ => show win2_0.index t (1 : Fin 2) * 256 + 1 * e.val = e.val; rw [(idx_in t).2]; omega

/-- The loaded directions are the whole directions arrays. -/
theorem dir0_entry (c : Dev nD) (t : Fin cfg2.N) (q : Fin 2) (e : Fin 256) :
    dir0blk V c t (ix2 q e) = H0 V c (ix2 q e) := by
  unfold dir0blk iblk2
  rw [View.read_apply]
  show V c main_v17 _ = V c main_v17 _
  refine congrArg (V c main_v17) (funext fun a => Fin.ext ?_)
  match a with
  | ⟨0, _⟩ => show win2_1.index t (0 : Fin 2) * 2 + 1 * q.val = q.val; rw [(idx_dir0 t).1]; omega
  | ⟨1, _⟩ => show win2_1.index t (1 : Fin 2) * 256 + 1 * e.val = e.val; rw [(idx_dir0 t).2]; omega
theorem dir1_entry (c : Dev nD) (t : Fin cfg2.N) (q : Fin 2) (e : Fin 256) :
    dir1blk V c t (ix2 q e) = H1 V c (ix2 q e) := by
  unfold dir1blk iblk2
  rw [View.read_apply]
  show V c main_v43 _ = V c main_v43 _
  refine congrArg (V c main_v43) (funext fun a => Fin.ext ?_)
  match a with
  | ⟨0, _⟩ => show win2_2.index t (0 : Fin 2) * 2 + 1 * q.val = q.val; rw [(idx_dir1 t).1]; omega
  | ⟨1, _⟩ => show win2_2.index t (1 : Fin 2) * 256 + 1 * e.val = e.val; rw [(idx_dir1 t).2]; omega

/-- Row `k`'s term of head `q`'s column `d`: round 1's weight of the re-weighted row times its entry. -/
def term (c : Dev nD) (q : Fin 2) (d : Fin 256) (k : Fin 200000) : EReal :=
  gate (dot (fun e => rowsOf (X V c) k e * gate (dot (rowsOf (X V c) k) (fun e' => H0 V c (ix2 q e'))))
      (fun e => H1 V c (ix2 q e)))
    * (rowsOf (X V c) k d * gate (dot (rowsOf (X V c) k) (fun e' => H0 V c (ix2 q e'))))

/-- Step `n`'s addend to head `q`'s column `d`. -/
def addend (c : Dev nD) (q : Fin 2) (n : ℕ) (d : Fin 256) : EReal :=
  ∑ r ∈ range 5000, Sums.ext (term V c q d) (n * 5000 + r)

theorem tile_addend (c : Dev nD) (q : Fin 2) (t : Fin cfg2.N) (d : Fin 256) :
    ∑ r : Fin 5000,
        gate (dot (fun e => tile V c t (ix2 r e)
              * gate (dot (fun e' => tile V c t (ix2 r e')) (fun e' => dir0blk V c t (ix2 q e'))))
            (fun e => dir1blk V c t (ix2 q e)))
          * (tile V c t (ix2 r d) * gate (dot (fun e' => tile V c t (ix2 r e')) (fun e' => dir0blk V c t (ix2 q e'))))
      = addend V c q t.val d := by
  have hN : cfg2.N = 40 := N_2
  have hb : ∀ r : Fin 5000, t.val * 5000 + r.val < 200000 := fun r => by
    have := t.isLt; have := r.isLt; omega
  rw [addend, ← Sums.tile_ext (term V c q d) 5000 t.val hb]
  refine Finset.sum_congr rfl fun r _ => ?_
  simp only [fun e => tile_row V c t r e (hb r), dir0_entry, dir1_entry]
  rfl

/-- What head `q`'s result array ends holding. -/
def partials (c : Dev nD) (q : Fin 2) : S2x1x256.Idx → EReal := fun i =>
  0 + ∑ s ∈ range 20, addend V c q (20 * (i 0).val + s) (i 2)

/-! ### Head 0 -/

theorem sweep0 (c : Dev nD) (t : ℕ) (ht : t < cfg2.N) (d : Fin 256) :
    (outsAt2 V c t ht).1 (ix3 (0 : Fin 1) (0 : Fin 1) d)
      = 0 + ∑ s ∈ range (t % 20 + 1), addend V c 0 (20 * (t / 20) + s) d :=
  Accumulate.closed (fun n h d => (outsAt2 V c n h).1 (ix3 (0 : Fin 1) (0 : Fin 1) d)) 20 (by decide) (addend V c 0)
    (fun n h hn d => by
      refine (congrFun (congrArg Prod.fst (outsAt2_A V c ⟨n, h⟩ hn)) _).trans ?_
      dsimp only
      rw [BodyValues.round1_first_head0]
      refine (Tiles.round1_head0 (tile V c ⟨n, h⟩) (dir0blk V c ⟨n, h⟩) (dir1blk V c ⟨n, h⟩) _ d).trans ?_
      rw [Tiles.zero2a, tile_addend])
    (fun n h hn d => by
      refine (congrFun (congrArg Prod.fst (outsAt2_B V c ⟨n + 1, h⟩ hn)) _).trans ?_
      dsimp only
      rw [BodyValues.round1_later_head0]
      refine (Tiles.round1_head0 (tile V c ⟨n + 1, h⟩) (dir0blk V c ⟨n + 1, h⟩) (dir1blk V c ⟨n + 1, h⟩) _ d).trans ?_
      rw [tile_addend]
      rfl)
    t ht d

/-- A write-back of head 0's window writes the finished block of its core. -/
theorem flushed_eq0 (c : Dev nD) (t : Fin cfg2.N) (hf : (cfg2.win 3).flush t = true) :
    (dat2 V c).flushed 3 t = ((cfg2.win 3).blk t).view.read (Elt Ideal) (partials V c 0) := by
  have h19 : t.val % 20 = 19 := (flush2_3 t).mp hf
  show (cfg2.win 3).cut (grid2.coords t) ((dat2 V c).after 3 t) = _
  rw [after2_3]
  funext j
  show (outsAt2 V c t.val t.isLt).1 j = partials V c 0 (((cfg2.win 3).blk t).view.emb j)
  have h0 : (j 0).val < 1 := (j 0).isLt
  have h1 : (j 1).val < 1 := (j 1).isLt
  have h2 : (j 2).val < 256 := (j 2).isLt
  have hj : (j : S1x1x256.Idx) = ix3 (0 : Fin 1) (0 : Fin 1) (⟨(j 2).val, h2⟩ : Fin 256) := funext fun a => by
    match a with
    | ⟨0, _⟩ => exact Fin.ext (by show (j 0).val = 0; omega)
    | ⟨1, _⟩ => exact Fin.ext (by show (j 1).val = 0; omega)
    | ⟨2, _⟩ => rfl
  have e0 : ((((cfg2.win 3).blk t).view.emb j) 0).val = t.val / 20 := by
    show win2_3.index t (0 : Fin 3) * 1 + 1 * (j 0).val = _
    rw [(idx_out0 t).1]; omega
  have e2 : ((((cfg2.win 3).blk t).view.emb j) 2 : Fin 256) = ⟨(j 2).val, h2⟩ := Fin.ext (by
    show win2_3.index t (2 : Fin 3) * 256 + 1 * (j 2).val = (j 2).val
    rw [(idx_out0 t).2.2]; omega)
  refine (congrArg (outsAt2 V c t.val t.isLt).1 hj).trans ?_
  rw [sweep0 V c t.val t.isLt ⟨(j 2).val, h2⟩, h19]
  unfold partials
  refine congrArg (0 + ·) (Finset.sum_congr rfl fun s _ => ?_)
  exact congrArg₂ (addend V c 0) (by rw [e0]) e2.symm

/-- Every entry of head 0's result array is in the block some write-back writes. -/
theorem cover0 (i : S2x1x256.Idx) :
    ∃ t : Fin cfg2.N, (cfg2.win 3).flush t = true ∧ i ∈ ((cfg2.win 3).blk t).view.set := by
  have hN : cfg2.N = 40 := N_2
  have h0 : (i 0).val < 2 := (i 0).isLt
  have h1 : (i 1).val < 1 := (i 1).isLt
  have h2 : (i 2).val < 256 := (i 2).isLt
  have ht : 20 * (i 0).val + 19 < cfg2.N := by omega
  obtain ⟨q0, q1, q2⟩ := idx_out0 ⟨20 * (i 0).val + 19, ht⟩
  refine ⟨⟨20 * (i 0).val + 19, ht⟩, (flush2_3 _).mpr (by show (20 * (i 0).val + 19) % 20 = 19; omega), ?_⟩
  show i ∈ ((View.whole main_v44_0).slice (win2_3.rect ⟨20 * (i 0).val + 19, ht⟩)).set
  rw [View.set_slice_whole, Rect.mem_set_unit]
  intro a
  match a with
  | ⟨0, _⟩ =>
    show win2_3.index ⟨20 * (i 0).val + 19, ht⟩ (0 : Fin 3) * 1 ≤ (i 0).val
      ∧ (i 0).val < win2_3.index ⟨20 * (i 0).val + 19, ht⟩ (0 : Fin 3) * 1 + 1
    rw [q0]; show (20 * (i 0).val + 19) / 20 * 1 ≤ (i 0).val ∧ (i 0).val < (20 * (i 0).val + 19) / 20 * 1 + 1; omega
  | ⟨1, _⟩ =>
    show win2_3.index ⟨20 * (i 0).val + 19, ht⟩ (1 : Fin 3) * 1 ≤ (i 1).val
      ∧ (i 1).val < win2_3.index ⟨20 * (i 0).val + 19, ht⟩ (1 : Fin 3) * 1 + 1
    rw [q1]; omega
  | ⟨2, _⟩ =>
    show win2_3.index ⟨20 * (i 0).val + 19, ht⟩ (2 : Fin 3) * 256 ≤ (i 2).val
      ∧ (i 2).val < win2_3.index ⟨20 * (i 0).val + 19, ht⟩ (2 : Fin 3) * 256 + 256
    rw [q2]; omega

/-- Head 0's result array after the region. -/
theorem final0 (c : Dev nD) : (dat2 V c).arrAt 3 cfg2.N = partials V c 0 :=
  (dat2 V c).arrAt_eq_of_cover 3 (partials V c 0) (flushed_eq0 V c) cover0

/-! ### Head 1 -/

theorem sweep1 (c : Dev nD) (t : ℕ) (ht : t < cfg2.N) (d : Fin 256) :
    (outsAt2 V c t ht).2 (ix3 (0 : Fin 1) (0 : Fin 1) d)
      = 0 + ∑ s ∈ range (t % 20 + 1), addend V c 1 (20 * (t / 20) + s) d :=
  Accumulate.closed (fun n h d => (outsAt2 V c n h).2 (ix3 (0 : Fin 1) (0 : Fin 1) d)) 20 (by decide) (addend V c 1)
    (fun n h hn d => by
      refine (congrFun (congrArg Prod.snd (outsAt2_A V c ⟨n, h⟩ hn)) _).trans ?_
      dsimp only
      rw [BodyValues.round1_first_head1]
      refine (Tiles.round1_head1 (tile V c ⟨n, h⟩) (dir0blk V c ⟨n, h⟩) (dir1blk V c ⟨n, h⟩) _ d).trans ?_
      rw [Tiles.zero2b, tile_addend])
    (fun n h hn d => by
      refine (congrFun (congrArg Prod.snd (outsAt2_B V c ⟨n + 1, h⟩ hn)) _).trans ?_
      dsimp only
      rw [BodyValues.round1_later_head1]
      refine (Tiles.round1_head1 (tile V c ⟨n + 1, h⟩) (dir0blk V c ⟨n + 1, h⟩) (dir1blk V c ⟨n + 1, h⟩) _ d).trans ?_
      rw [tile_addend]
      rfl)
    t ht d

/-- A write-back of head 1's window writes the finished block of its core. -/
theorem flushed_eq1 (c : Dev nD) (t : Fin cfg2.N) (hf : (cfg2.win 4).flush t = true) :
    (dat2 V c).flushed 4 t = ((cfg2.win 4).blk t).view.read (Elt Ideal) (partials V c 1) := by
  have h19 : t.val % 20 = 19 := (flush2_4 t).mp hf
  show (cfg2.win 4).cut (grid2.coords t) ((dat2 V c).after 4 t) = _
  rw [after2_4]
  funext j
  show (outsAt2 V c t.val t.isLt).2 j = partials V c 1 (((cfg2.win 4).blk t).view.emb j)
  have h0 : (j 0).val < 1 := (j 0).isLt
  have h1 : (j 1).val < 1 := (j 1).isLt
  have h2 : (j 2).val < 256 := (j 2).isLt
  have hj : (j : S1x1x256.Idx) = ix3 (0 : Fin 1) (0 : Fin 1) (⟨(j 2).val, h2⟩ : Fin 256) := funext fun a => by
    match a with
    | ⟨0, _⟩ => exact Fin.ext (by show (j 0).val = 0; omega)
    | ⟨1, _⟩ => exact Fin.ext (by show (j 1).val = 0; omega)
    | ⟨2, _⟩ => rfl
  have e0 : ((((cfg2.win 4).blk t).view.emb j) 0).val = t.val / 20 := by
    show win2_4.index t (0 : Fin 3) * 1 + 1 * (j 0).val = _
    rw [(idx_out1 t).1]; omega
  have e2 : ((((cfg2.win 4).blk t).view.emb j) 2 : Fin 256) = ⟨(j 2).val, h2⟩ := Fin.ext (by
    show win2_4.index t (2 : Fin 3) * 256 + 1 * (j 2).val = (j 2).val
    rw [(idx_out1 t).2.2]; omega)
  refine (congrArg (outsAt2 V c t.val t.isLt).2 hj).trans ?_
  rw [sweep1 V c t.val t.isLt ⟨(j 2).val, h2⟩, h19]
  unfold partials
  refine congrArg (0 + ·) (Finset.sum_congr rfl fun s _ => ?_)
  exact congrArg₂ (addend V c 1) (by rw [e0]) e2.symm

/-- Every entry of head 1's result array is in the block some write-back writes. -/
theorem cover1 (i : S2x1x256.Idx) :
    ∃ t : Fin cfg2.N, (cfg2.win 4).flush t = true ∧ i ∈ ((cfg2.win 4).blk t).view.set := by
  have hN : cfg2.N = 40 := N_2
  have h0 : (i 0).val < 2 := (i 0).isLt
  have h1 : (i 1).val < 1 := (i 1).isLt
  have h2 : (i 2).val < 256 := (i 2).isLt
  have ht : 20 * (i 0).val + 19 < cfg2.N := by omega
  obtain ⟨q0, q1, q2⟩ := idx_out1 ⟨20 * (i 0).val + 19, ht⟩
  refine ⟨⟨20 * (i 0).val + 19, ht⟩, (flush2_4 _).mpr (by show (20 * (i 0).val + 19) % 20 = 19; omega), ?_⟩
  show i ∈ ((View.whole main_v44_1).slice (win2_4.rect ⟨20 * (i 0).val + 19, ht⟩)).set
  rw [View.set_slice_whole, Rect.mem_set_unit]
  intro a
  match a with
  | ⟨0, _⟩ =>
    show win2_4.index ⟨20 * (i 0).val + 19, ht⟩ (0 : Fin 3) * 1 ≤ (i 0).val
      ∧ (i 0).val < win2_4.index ⟨20 * (i 0).val + 19, ht⟩ (0 : Fin 3) * 1 + 1
    rw [q0]; show (20 * (i 0).val + 19) / 20 * 1 ≤ (i 0).val ∧ (i 0).val < (20 * (i 0).val + 19) / 20 * 1 + 1; omega
  | ⟨1, _⟩ =>
    show win2_4.index ⟨20 * (i 0).val + 19, ht⟩ (1 : Fin 3) * 1 ≤ (i 1).val
      ∧ (i 1).val < win2_4.index ⟨20 * (i 0).val + 19, ht⟩ (1 : Fin 3) * 1 + 1
    rw [q1]; omega
  | ⟨2, _⟩ =>
    show win2_4.index ⟨20 * (i 0).val + 19, ht⟩ (2 : Fin 3) * 256 ≤ (i 2).val
      ∧ (i 2).val < win2_4.index ⟨20 * (i 0).val + 19, ht⟩ (2 : Fin 3) * 256 + 256
    rw [q2]; omega

/-- Head 1's result array after the region. -/
theorem final1 (c : Dev nD) : (dat2 V c).arrAt 4 cfg2.N = partials V c 1 :=
  (dat2 V c).arrAt_eq_of_cover 4 (partials V c 1) (flushed_eq1 V c) cover1

end Cert.KernelIdeal.Round1Pass
end
-- ==== Proof.LibHostReads.lean ====
import Idealize.ShloMosaic.Lib.ValueIdx
import Idealize.ShloMosaic.Lib.Pipeline.Value
import Idealize.ShloMosaic.PureOps.Ideal.Laws

/-!
  The host's layout operations between the kernel regions, read at explicit coordinates:
  one core's row cut out of a [2, 1, n] array and laid as a vector; a vector laid as the one row of
  a [1, n] matrix; a scalar spread over any shape; one head's matrix cut out of a [2, a, b] array;
  two [1, n] rows stacked into a [2, n] matrix.
-/

namespace Cert.HostReads

open Idealize.ShloMosaic Idealize.ShloMosaic.ValueIdx

variable {α : Type}

/-- Core `q`'s row of a [2, 1, n] array, as a vector: entry `d` is the array's entry `(q, 0, d)`. -/
theorem core_row {n : ℕ} (s : (⟨3, ![2, 1, n]⟩ : Shape).Idx → α) (q : Fin 2) (off : Fin 3 → ℕ) (hoff : off = ![q.val, 0, 0])
    (hs : (⟨3, ![2, 1, n]⟩ : Shape).Slices off ⟨3, ![1, 1, n]⟩) (hc : (⟨3, ![1, 1, n]⟩ : Shape).ShapeCasts ⟨1, ![n]⟩)
    (d : Fin n) :
    shapeCast ⟨1, ![n]⟩ (extractStridedSlice ⟨3, ![1, 1, n]⟩ off s hs) hc (ix1 d) = s (ix3 q (0 : Fin 1) d) := by
  subst hoff
  refine (shapeCast_apply _ hc (ix1 d) (ix3 (0 : Fin 1) (0 : Fin 1) d) (by
    rw [Shape.rowMajor_val_three, Shape.rowMajor_val_one]
    show (0 * 1 + 0) * n + d.val = d.val
    simp only [Nat.zero_mul, Nat.zero_add])).trans ?_
  refine extractStridedSlice_apply _ s hs _ (ix3 q (0 : Fin 1) d) fun a => ?_
  match a with
  | ⟨0, _⟩ => rfl
  | ⟨1, _⟩ => rfl
  | ⟨2, _⟩ => exact (Nat.zero_add _).symm

/-- A vector laid as the one row of a [1, n] matrix: entry `(0, d)` is the vector's entry `d`. -/
theorem row_of_vec {n : ℕ} (v : (⟨1, ![n]⟩ : Shape).Idx → α) (dims : Fin 1 → Fin 2) (hd : dims = ![1])
    (h : (⟨1, ![n]⟩ : Shape).BroadcastsInDim ⟨2, ![1, n]⟩ dims) (u : Fin 1) (d : Fin n) :
    broadcastInDim ⟨2, ![1, n]⟩ dims h v (ix2 u d) = v (ix1 d) := by
  subst hd
  refine broadcastInDim_apply _ h v (ix2 u d) (ix1 d) fun a => ?_
  match a with
  | ⟨0, _⟩ =>
    show d.val = if n = 1 then 0 else d.val
    have := d.isLt
    split <;> omega

/-- A scalar spread over a shape: every entry is the scalar. -/
theorem splat {t : Shape} (dims : Fin 0 → Fin t.rank) (h : (⟨0, ![]⟩ : Shape).BroadcastsInDim t dims)
    (v : (⟨0, ![]⟩ : Shape).Idx → α) (i : t.Idx) : broadcastInDim t dims h v i = v ix0 :=
  broadcastInDim_apply _ h v i ix0 fun a => a.elim0

/-- Head `q`'s matrix cut out of a [2, a, b] array: entry `(i, j)` is the array's entry `(q, i, j)`. -/
theorem head_mat {a b : ℕ} (w : (⟨3, ![2, a, b]⟩ : Shape).Idx → α) (q : Fin 2) (off : Fin 3 → ℕ) (hoff : off = ![q.val, 0, 0])
    (hs : (⟨3, ![2, a, b]⟩ : Shape).Slices off ⟨3, ![1, a, b]⟩) (hc : (⟨3, ![1, a, b]⟩ : Shape).ShapeCasts ⟨2, ![a, b]⟩)
    (i : Fin a) (j : Fin b) :
    shapeCast ⟨2, ![a, b]⟩ (extractStridedSlice ⟨3, ![1, a, b]⟩ off w hs) hc (ix2 i j) = w (ix3 q i j) := by
  subst hoff
  refine (shapeCast_apply _ hc (ix2 i j) (ix3 (0 : Fin 1) i j) (by
    rw [Shape.rowMajor_val_three, Shape.rowMajor_val_two]
    show (0 * a + i.val) * b + j.val = i.val * b + j.val
    rw [Nat.zero_mul, Nat.zero_add])).trans ?_
  refine extractStridedSlice_apply _ w hs _ (ix3 q i j) fun ax => ?_
  match ax with
  | ⟨0, _⟩ => rfl
  | ⟨1, _⟩ => exact (Nat.zero_add _).symm
  | ⟨2, _⟩ => exact (Nat.zero_add _).symm

/-- Two [1, n] rows stacked: row 0 of the stack is the first. -/
theorem stack_row0 {n : ℕ} (x₁ x₂ : (⟨2, ![1, n]⟩ : Shape).Idx → α)
    (h : Shape.Concatenates [(⟨2, ![1, n]⟩ : Shape), ⟨2, ![1, n]⟩] ⟨2, ![2, n]⟩ 0) (e : Fin n) :
    concatenate ⟨2, ![2, n]⟩ 0 [⟨⟨2, ![1, n]⟩, x₁⟩, ⟨⟨2, ![1, n]⟩, x₂⟩] h (ix2 (0 : Fin 2) e) = x₁ (ix2 (0 : Fin 1) e) :=
  concatenate_pair_apply_left 0 x₁ x₂ h (ix2 (0 : Fin 2) e) rfl (ix2 (0 : Fin 1) e) fun b => by
    match b with
    | ⟨0, _⟩ => rfl
    | ⟨1, _⟩ => rfl

/-- Two [1, n] rows stacked: row 1 of the stack is the second. -/
theorem stack_row1 {n : ℕ} (x₁ x₂ : (⟨2, ![1, n]⟩ : Shape).Idx → α)
    (h : Shape.Concatenates [(⟨2, ![1, n]⟩ : Shape), ⟨2, ![1, n]⟩] ⟨2, ![2, n]⟩ 0) (e : Fin n) :
    concatenate ⟨2, ![2, n]⟩ 0 [⟨⟨2, ![1, n]⟩, x₁⟩, ⟨⟨2, ![1, n]⟩, x₂⟩] h (ix2 (1 : Fin 2) e) = x₂ (ix2 (0 : Fin 1) e) :=
  concatenate_pair_apply_right 0 x₁ x₂ h (ix2 (1 : Fin 2) e) rfl rfl (ix2 (0 : Fin 1) e)
    (fun b hb => by
      match b with
      | ⟨0, _⟩ => exact absurd rfl hb
      | ⟨1, _⟩ => rfl)
    rfl

end Cert.HostReads
-- ==== Proof.LibDotHost.lean ====
/-
  The host's matrix product read one entry at a time on the extended reals.

  The product of an `m × k` matrix with a `k × n` matrix — a contraction of the left operand's second axis with
  the right operand's first — has at `(p, q)` the sum over `c` of `l (p, c) · r (c, q)`, whatever order the sum is
  scheduled in.
-/
import Idealize.ShloMosaic.Lib.ValueIdx
import Idealize.ShloMosaic.Lib.Pipeline.Value
import Idealize.ShloMosaic.PureOps.Ideal.Laws

namespace Cert.LibDotHost

open Idealize.ShloMosaic Idealize.ShloMosaic.ValueIdx

/-- The host product at `(p, q)`: the sum over `c` of `l (p, c) · r (c, q)`. The four hypotheses say which
    coordinate of the output index or of the contraction index each operand coordinate is. -/
theorem dotGeneral_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (l : FVec Ideal ⟨2, ![M, K]⟩ φ₁) (r : FVec Ideal ⟨2, ![K, N]⟩ φ₂) (p : Fin M) (q : Fin N) :
    Host.dotGeneral D none l r (ix2 p q) = ∑ c : Fin K, l (ix2 p c) * r (ix2 c q) := by
  refine (Ideal.dotGeneral_apply D none .single l r (ix2 p q)).trans ?_
  rw [← Equiv.sum_comp (contrEquiv1 D K hr hs).symm]
  refine Finset.sum_congr rfl fun c _ => ?_
  have hc := contrEquiv1_symm_val D K hr hs c
  have el : D.lhsIdx (ix2 p q) ((contrEquiv1 D K hr hs).symm c) = ix2 p c := funext fun a => Fin.ext (by
    match a with
    | ⟨0, _⟩ => exact hl0 _ _
    | ⟨1, _⟩ => exact (hl1 _ _).trans hc)
  have er : D.rhsIdx (ix2 p q) ((contrEquiv1 D K hr hs).symm c) = ix2 c q := funext fun a => Fin.ext (by
    match a with
    | ⟨0, _⟩ => exact (hr0 _ _).trans hc
    | ⟨1, _⟩ => exact hr1 _ _)
  rw [el, er]

end Cert.LibDotHost
-- ==== Proof.HostStages.lean ====
import proofs.«156319_j5583457485032_2_alg».proof.Proof.Gen.KernelIdeal.Frame
import proofs.«156319_j5583457485032_2_alg».proof.Proof.Attention
import proofs.«156319_j5583457485032_2_alg».proof.Proof.LibHostReads
import proofs.«156319_j5583457485032_2_alg».proof.Proof.LibDotHost
import Idealize.ShloMosaic.Lib.StableHlo.Run

/-!
  The host operations between the kernel regions, as three named functions.

  After each region the host adds the two cores' partial rows. After the first region it divides
  by the row count, lays the mean as a row and projects it through each head's matrix (`tanh (μ·w)`),
  stacking the two heads' directions as a [2, 256] matrix; after the second it does the same with
  each head's own mean; after the third it lays the two heads' pooled rows side by side.
  Each function is the composition of the printed operations (so the program's buffers hold it by
  unfolding), and is then read at an index over the extended reals.
-/

noncomputable section

namespace Cert.KernelIdeal.Stages

open Cert.KernelIdeal Cert.KernelIdeal.Gen Idealize.ShloMosaic Idealize.ShloMosaic.TcCoe Idealize.SL.Sem
open Idealize.ShloMosaic.StableHlo Idealize.ShloMosaic.ValueIdx

section Defs
variable {F : FTy → Type} [FloatOps F]

/-- The two cores' partial rows added. -/
def coresSum (s : FVec F S2x1x256 .f32) : FVec F S256 .f32 :=
  addf (shapeCast S256 (extractStridedSlice S1x1x256 ![0, 0, 0] s slices_S2x1x256_S1x1x256_0_0_0) shapeCasts_S1x1x256_S256)
    (shapeCast S256 (extractStridedSlice S1x1x256 ![1, 0, 0] s slices_S2x1x256_S1x1x256_1_0_0) shapeCasts_S1x1x256_S256)

/-- Head 0's and head 1's matrices. -/
def mat0 (w : FVec F S2x256x256 .f32) : FVec F S256x256 .f32 :=
  shapeCast S256x256 (extractStridedSlice S1x256x256 ![0, 0, 0] w slices_S2x256x256_S1x256x256_0_0_0) shapeCasts_S1x256x256_S256x256
def mat1 (w : FVec F S2x256x256 .f32) : FVec F S256x256 .f32 :=
  shapeCast S256x256 (extractStridedSlice S1x256x256 ![1, 0, 0] w slices_S2x256x256_S1x256x256_1_0_0) shapeCasts_S1x256x256_S256x256

/-- The two heads' directions stacked: row `q` is `tanh (μ_q · w_q)`. -/
def dirs (mu0 mu1 : FVec F S1x256 .f32) (w : FVec F S2x256x256 .f32) : FVec F S2x256 .f32 :=
  concatenate S2x256 0
    [⟨S1x256, Host.tanh (Host.dotGeneral dot_S1x256_S256x256_S1x256_1_0_0_1_n_n none mu0 (mat0 w))⟩,
     ⟨S1x256, Host.tanh (Host.dotGeneral dot_S1x256_S256x256_S1x256_1_0_0_1_n_n none mu1 (mat1 w))⟩]
    concatenates_S1x256_S1x256_S2x256_d0

/-- The mean row after the first region: divide, then lay as a row. -/
def meanA (s : FVec F S2x1x256 .f32) : FVec F S1x256 .f32 :=
  broadcastInDim S1x256 ![1] bcast_S256_S1x256_1
    (Host.divf (coresSum s) (broadcastInDim S256 ![] bcast_S_S256 (constant S_ .f32 0x48435000#32)))

/-- The mean row after the second region: lay as a row, then divide. -/
def meanB (s : FVec F S2x1x256 .f32) : FVec F S1x256 .f32 :=
  Host.divf (broadcastInDim S1x256 ![1] bcast_S256_S1x256_1 (coresSum s))
    (broadcastInDim S1x256 ![] bcast_S_S1x256 (constant S_ .f32 0x48435000#32))

/-- The result: the two heads' pooled rows side by side. -/
def pooled (o0 o1 : FVec F S2x1x256 .f32) : FVec F S1x512 .f32 :=
  concatenate S1x512 1
    [⟨S1x256, broadcastInDim S1x256 ![1] bcast_S256_S1x256_1 (coresSum o0)⟩,
     ⟨S1x256, broadcastInDim S1x256 ![1] bcast_S256_S1x256_1 (coresSum o1)⟩]
    concatenates_S1x256_S1x256_S1x512_d1

/-- After the first stretch the directions' buffer holds `dirs` of the mean row. -/
theorem stretch1 (Wv : Valuation τ sig (Elt F)) :
    StableHlo.after hostOps1 Wv (Proc.devRef .tc main_v17)
      = dirs (meanA (Wv (Proc.devRef .tc main_v0))) (meanA (Wv (Proc.devRef .tc main_v0))) (Wv (Proc.devRef .tc main_arg1)) := by
  after_results_simp <;> rfl

set_option maxHeartbeats 4000000 in
/-- After the second stretch the second directions' buffer holds `dirs` of each head's mean row. -/
theorem stretch2 (Wv : Valuation τ sig (Elt F)) :
    StableHlo.after hostOps2 Wv (Proc.devRef .tc main_v43)
      = dirs (meanB (Wv (Proc.devRef .tc main_v18_0))) (meanB (Wv (Proc.devRef .tc main_v18_1))) (Wv (Proc.devRef .tc main_arg1)) := by
  after_results_simp <;> rfl

/-- After the last stretch the result buffer holds the pooled rows side by side. -/
theorem stretch3 (Wv : Valuation τ sig (Elt F)) :
    StableHlo.after hostOps3 Wv (Proc.devRef .tc main_v57)
      = pooled (Wv (Proc.devRef .tc main_v44_0)) (Wv (Proc.devRef .tc main_v44_1)) := by
  after_results_simp <;> rfl

end Defs

/-! ## Read at an index, over the extended reals -/

theorem coresSum_apply (s : FVec Ideal S2x1x256 .f32) (d : Fin 256) :
    coresSum s (ix1 d) = s (ix3 (0 : Fin 2) (0 : Fin 1) d) + s (ix3 (1 : Fin 2) (0 : Fin 1) d) := by
  unfold coresSum
  exact congrArg₂ (· + ·) (HostReads.core_row s 0 _ rfl _ _ d) (HostReads.core_row s 1 _ rfl _ _ d)

theorem meanA_apply (s : FVec Ideal S2x1x256 .f32) (d : Fin 256) :
    meanA s (ix2 (0 : Fin 1) d) = Ideal.div (s (ix3 (0 : Fin 2) (0 : Fin 1) d) + s (ix3 (1 : Fin 2) (0 : Fin 1) d)) Attn.cN := by
  unfold meanA
  refine (HostReads.row_of_vec _ _ rfl _ 0 d).trans ?_
  show Ideal.div (coresSum s (ix1 d)) (broadcastInDim S256 ![] bcast_S_S256 (constant (F := Ideal) S_ .f32 0x48435000#32) (ix1 d)) = _
  rw [coresSum_apply, HostReads.splat]
  rfl

theorem meanB_apply (s : FVec Ideal S2x1x256 .f32) (d : Fin 256) :
    meanB s (ix2 (0 : Fin 1) d) = Ideal.div (s (ix3 (0 : Fin 2) (0 : Fin 1) d) + s (ix3 (1 : Fin 2) (0 : Fin 1) d)) Attn.cN := by
  unfold meanB
  show Ideal.div (broadcastInDim S1x256 ![1] bcast_S256_S1x256_1 (coresSum s) (ix2 (0 : Fin 1) d))
    (broadcastInDim S1x256 ![] bcast_S_S1x256 (constant (F := Ideal) S_ .f32 0x48435000#32) (ix2 (0 : Fin 1) d)) = _
  rw [HostReads.row_of_vec _ _ rfl _ 0 d, coresSum_apply, HostReads.splat]
  rfl

/-- The host's [1,256]·[256,256] product at `(0, e)`. -/
theorem dot_apply (l : FVec Ideal S1x256 .f32) (r : FVec Ideal S256x256 .f32) (e : Fin 256) :
    Host.dotGeneral dot_S1x256_S256x256_S1x256_1_0_0_1_n_n none l r (ix2 (0 : Fin 1) e)
      = ∑ k : Fin 256, l (ix2 (0 : Fin 1) k) * r (ix2 k e) :=
  LibDotHost.dotGeneral_apply dot_S1x256_S256x256_S1x256_1_0_0_1_n_n rfl rfl
    (fun i q => by
      unfold DotDims.lhsIdx
      rw [dif_neg (show ¬(0 : Fin S1x256.rank) ∈ dot_S1x256_S256x256_S1x256_1_0_0_1_n_n.lhsBatch by decide),
        dif_pos (show (0 : Fin S1x256.rank) ∈ dot_S1x256_S256x256_S1x256_1_0_0_1_n_n.lhsNonContracting by decide)]
      rfl)
    (fun i q => dot_S1x256_S256x256_S1x256_1_0_0_1_n_n.lhsIdx_val_of_single rfl i q)
    (fun i q => dot_S1x256_S256x256_S1x256_1_0_0_1_n_n.rhsIdx_val_of_single rfl i q)
    (fun i q => by
      unfold DotDims.rhsIdx
      rw [dif_neg (show ¬(1 : Fin S256x256.rank) ∈ dot_S1x256_S256x256_S1x256_1_0_0_1_n_n.rhsBatch by decide),
        dif_pos (show (1 : Fin S256x256.rank) ∈ dot_S1x256_S256x256_S1x256_1_0_0_1_n_n.rhsNonContracting by decide)]
      rfl)
    l r 0 e

theorem mat0_apply (w : FVec Ideal S2x256x256 .f32) (d e : Fin 256) : mat0 w (ix2 d e) = Attn.matOf w 0 d e := by
  unfold mat0 Attn.matOf
  exact HostReads.head_mat w 0 _ rfl _ _ d e
theorem mat1_apply (w : FVec Ideal S2x256x256 .f32) (d e : Fin 256) : mat1 w (ix2 d e) = Attn.matOf w 1 d e := by
  unfold mat1 Attn.matOf
  exact HostReads.head_mat w 1 _ rfl _ _ d e

/-- Row 0 of the stacked directions: head 0's projection of its mean row. -/
theorem dirs_row0 (mu0 mu1 : FVec Ideal S1x256 .f32) (w : FVec Ideal S2x256x256 .f32) (e : Fin 256) :
    dirs mu0 mu1 w (ix2 (0 : Fin 2) e) = Attn.proj (fun d => mu0 (ix2 (0 : Fin 1) d)) (Attn.matOf w 0) e := by
  unfold dirs
  refine (HostReads.stack_row0 _ _ _ e).trans ?_
  show Ideal.tanh (Host.dotGeneral dot_S1x256_S256x256_S1x256_1_0_0_1_n_n none mu0 (mat0 w) (ix2 (0 : Fin 1) e)) = _
  rw [dot_apply]
  unfold Attn.proj
  simp only [mat0_apply]

/-- Row 1 of the stacked directions: head 1's projection of its mean row. -/
theorem dirs_row1 (mu0 mu1 : FVec Ideal S1x256 .f32) (w : FVec Ideal S2x256x256 .f32) (e : Fin 256) :
    dirs mu0 mu1 w (ix2 (1 : Fin 2) e) = Attn.proj (fun d => mu1 (ix2 (0 : Fin 1) d)) (Attn.matOf w 1) e := by
  unfold dirs
  refine (HostReads.stack_row1 _ _ _ e).trans ?_
  show Ideal.tanh (Host.dotGeneral dot_S1x256_S256x256_S1x256_1_0_0_1_n_n none mu1 (mat1 w) (ix2 (0 : Fin 1) e)) = _
  rw [dot_apply]
  unfold Attn.proj
  simp only [mat1_apply]

/-- One pooled row laid as a [1,256] row. -/
theorem pooled_row_apply (o : FVec Ideal S2x1x256 .f32) (d : Fin 256) :
    broadcastInDim S1x256 ![1] bcast_S256_S1x256_1 (coresSum o) (ix2 (0 : Fin 1) d)
      = o (ix3 (0 : Fin 2) (0 : Fin 1) d) + o (ix3 (1 : Fin 2) (0 : Fin 1) d) := by
  rw [HostReads.row_of_vec _ _ rfl _ 0 d, coresSum_apply]

end Cert.KernelIdeal.Stages

end
-- ==== Proof.KernelValue.lean ====
import proofs.«156319_j5583457485032_2_alg».proof.Proof.Gen.KernelIdeal.Frame
import proofs.«156319_j5583457485032_2_alg».proof.Proof.ColumnPass
import proofs.«156319_j5583457485032_2_alg».proof.Proof.Round0Pass
import proofs.«156319_j5583457485032_2_alg».proof.Proof.Round1Pass
import proofs.«156319_j5583457485032_2_alg».proof.Proof.HostStages
import proofs.«156319_j5583457485032_2_alg».proof.Proof.LibAccumulate
import proofs.«156319_j5583457485032_2_alg».proof.Proof.Attention

/-!
  The idealized kernel program's result, as the mathematics of `Attention.lean`.

  Following the buffers through the program: the first region leaves the two cores' column sums of
  `x`, which the host adds and divides into the mean and projects into round 0's directions
  `h₀ q = tanh (mean x · w q)`; the second region leaves, per head, the two cores' column sums of the
  re-weighted rows `y q n = x n · gate ⟨x n, h₀ q⟩`, which the host turns into round 1's directions
  `h₁ q = tanh (mean (y q) · w q)`; the third region leaves, per head, the two cores' partial sums
  of `gate ⟨y q n, h₁ q⟩ · y q n d`, whose sum is the head's output. The arguments and the
  directions a later region reads are not written in between.
-/

noncomputable section

namespace Cert.KernelIdeal.Whole

open Cert.KernelIdeal Cert.KernelIdeal.Gen Idealize.ShloMosaic Idealize.ShloMosaic.TcCoe Idealize.SL.Sem
open Idealize.ShloMosaic.ValueIdx Cert.Attn
open Idealize.ShloMosaic.Pipeline (Dat)

variable (m : (ℓ : Loc nD τ sig) → Buf (Elt Ideal) ℓ) (ρ : Dev nD → PrngReg) (c : Dev nD)

/-- The two arguments at launch. -/
abbrev xs : (⟨2, ![200000, 256]⟩ : Shape).Idx → EReal := m ((c : Thread nD τ).loc main_arg0)
abbrev ws : (⟨3, ![2, 256, 256]⟩ : Shape).Idx → EReal := m ((c : Thread nD τ).loc main_arg1)

/-! ## What is not written in between -/

theorem x_at0 : V0 m ρ c main_arg0 = xs m c := rfl
theorem w_at1 : W1 m ρ c (Proc.devRef .tc main_arg1) = ws m c := (W1_of_ne m ρ c main_arg1 (by decide)).trans rfl
theorem x_at1 : W1 m ρ c (Proc.devRef .tc main_arg0) = xs m c :=
  ((W1_arr m ρ c 0).trans (((dat0 (V0 m ρ) c).arrAt_in 0 rfl _).trans (A_eq0 (V0 m ρ) c 0))).trans rfl
theorem x_at2 : V2 m ρ c main_arg0 = xs m c :=
  (StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W2 m ρ c (Proc.devRef .tc main_arg0) = W1 m ρ c (Proc.devRef .tc main_arg0)).trans (x_at1 m ρ c)
theorem w_at2 : W2 m ρ c (Proc.devRef .tc main_arg1) = ws m c :=
  (StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W2 m ρ c (Proc.devRef .tc main_arg1) = W1 m ρ c (Proc.devRef .tc main_arg1)).trans (w_at1 m ρ c)
theorem x_at3 : W3 m ρ c (Proc.devRef .tc main_arg0) = xs m c :=
  ((W3_arr m ρ c 0).trans (((dat1 (V2 m ρ) c).arrAt_in 0 rfl _).trans (A_eq1 (V2 m ρ) c 0))).trans (x_at2 m ρ c)
theorem w_at3 : W3 m ρ c (Proc.devRef .tc main_arg1) = ws m c :=
  (W3_of_ne m ρ c main_arg1 (by decide)).trans (w_at2 m ρ c)
theorem h_at3 : W3 m ρ c (Proc.devRef .tc main_v17) = V2 m ρ c main_v17 :=
  (W3_arr m ρ c 1).trans (((dat1 (V2 m ρ) c).arrAt_in 1 rfl _).trans (A_eq1 (V2 m ρ) c 1))
theorem x_at4 : V4 m ρ c main_arg0 = xs m c :=
  (StableHlo.after_of_forall_not_mem _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W4 m ρ c (Proc.devRef .tc main_arg0) = W3 m ρ c (Proc.devRef .tc main_arg0)).trans (x_at3 m ρ c)
theorem h_at4 : V4 m ρ c main_v17 = V2 m ρ c main_v17 :=
  (StableHlo.after_of_forall_not_mem _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W4 m ρ c (Proc.devRef .tc main_v17) = W3 m ρ c (Proc.devRef .tc main_v17)).trans (h_at3 m ρ c)

/-! ## Round 0's directions -/

/-- The first region's result array. -/
theorem colsums : W1 m ρ c (Proc.devRef .tc main_v0) = ColumnPass.partials (V0 m ρ) c :=
  (W1_arr m ρ c 1).trans (ColumnPass.final (V0 m ρ) c)

/-- The mean row the host makes of it is the mean of `x`. -/
theorem mean0 (d : Fin 256) :
    Stages.meanA (F := Ideal) (ColumnPass.partials (V0 m ρ) c) (ix2 (0 : Fin 1) d) = mean (rowsOf (xs m c)) d := by
  rw [Stages.meanA_apply]
  unfold mean colsum
  refine congrArg (Ideal.div · cN) ?_
  exact Accumulate.cores_total (fun k : Fin 200000 => ColumnPass.X (V0 m ρ) c (ix2 k d)) 10 10000 rfl

/-- The directions the second and third regions read are round 0's. -/
theorem dirs0 (q : Fin 2) (e : Fin 256) :
    V2 m ρ c main_v17 (ix2 q e) = h0 (rowsOf (xs m c)) (matOf (ws m c) q) e := by
  show StableHlo.after hostOps1 (W1 m ρ c) (Proc.devRef .tc main_v17) (ix2 q e) = _
  rw [Stages.stretch1, colsums, w_at1]
  unfold h0
  match q with
  | ⟨0, _⟩ =>
    refine (Stages.dirs_row0 _ _ _ e).trans ?_
    exact congrArg (fun mu => proj mu (matOf (ws m c) 0) e) (funext (mean0 m ρ c))
  | ⟨1, _⟩ =>
    refine (Stages.dirs_row1 _ _ _ e).trans ?_
    exact congrArg (fun mu => proj mu (matOf (ws m c) 1) e) (funext (mean0 m ρ c))

/-! ## Round 1's directions -/

/-- A row's term in the second region is the re-weighted row's entry. -/
theorem term0 (q : Fin 2) (d : Fin 256) (k : Fin 200000) :
    Round0Pass.term (V2 m ρ) c q d k = y1 (rowsOf (xs m c)) (matOf (ws m c) q) k d := by
  unfold Round0Pass.term
  rw [show (fun e => Round0Pass.H (V2 m ρ) c (ix2 q e)) = h0 (rowsOf (xs m c)) (matOf (ws m c) q) from
    funext (dirs0 m ρ c q)]
  rw [show Round0Pass.X (V2 m ρ) c = xs m c from x_at2 m ρ c]
  rfl

/-- The second region's result arrays. -/
theorem wsums0 : W3 m ρ c (Proc.devRef .tc main_v18_0) = Round0Pass.partials (V2 m ρ) c 0 :=
  (W3_arr m ρ c 2).trans (Round0Pass.final0 (V2 m ρ) c)
theorem wsums1 : W3 m ρ c (Proc.devRef .tc main_v18_1) = Round0Pass.partials (V2 m ρ) c 1 :=
  (W3_arr m ρ c 3).trans (Round0Pass.final1 (V2 m ρ) c)

/-- The mean row the host makes of head `q`'s is the mean of the re-weighted rows. -/
theorem mean1 (q : Fin 2) (d : Fin 256) :
    Stages.meanB (F := Ideal) (Round0Pass.partials (V2 m ρ) c q) (ix2 (0 : Fin 1) d)
      = mean (y1 (rowsOf (xs m c)) (matOf (ws m c) q)) d := by
  rw [Stages.meanB_apply]
  unfold mean colsum
  refine congrArg (Ideal.div · cN) ?_
  refine (Accumulate.cores_total (Round0Pass.term (V2 m ρ) c q d) 20 5000 rfl).trans ?_
  exact Finset.sum_congr rfl fun k _ => term0 m ρ c q d k

/-- The second directions the third region reads are round 1's. -/
theorem dirs1 (q : Fin 2) (e : Fin 256) :
    V4 m ρ c main_v43 (ix2 q e) = h1 (rowsOf (xs m c)) (matOf (ws m c) q) e := by
  show StableHlo.after hostOps2 (W3 m ρ c) (Proc.devRef .tc main_v43) (ix2 q e) = _
  rw [Stages.stretch2, wsums0, wsums1, w_at3]
  unfold h1
  match q with
  | ⟨0, _⟩ =>
    refine (Stages.dirs_row0 _ _ _ e).trans ?_
    exact congrArg (fun mu => proj mu (matOf (ws m c) 0) e) (funext (mean1 m ρ c 0))
  | ⟨1, _⟩ =>
    refine (Stages.dirs_row1 _ _ _ e).trans ?_
    exact congrArg (fun mu => proj mu (matOf (ws m c) 1) e) (funext (mean1 m ρ c 1))

/-! ## The heads' outputs -/

/-- A row's term in the third region is round 1's weight times the re-weighted row's entry. -/
theorem term1 (q : Fin 2) (d : Fin 256) (k : Fin 200000) :
    Round1Pass.term (V4 m ρ) c q d k
      = a1 (rowsOf (xs m c)) (matOf (ws m c) q) k * y1 (rowsOf (xs m c)) (matOf (ws m c) q) k d := by
  unfold Round1Pass.term
  rw [show (fun e' => Round1Pass.H0 (V4 m ρ) c (ix2 q e')) = h0 (rowsOf (xs m c)) (matOf (ws m c) q) from
    funext fun e' => (congrFun (h_at4 m ρ c) (ix2 q e')).trans (dirs0 m ρ c q e')]
  rw [show (fun e => Round1Pass.H1 (V4 m ρ) c (ix2 q e)) = h1 (rowsOf (xs m c)) (matOf (ws m c) q) from
    funext (dirs1 m ρ c q)]
  rw [show Round1Pass.X (V4 m ρ) c = xs m c from x_at4 m ρ c]
  rfl

/-- The third region's result arrays. -/
theorem pools0 : W5 m ρ c (Proc.devRef .tc main_v44_0) = Round1Pass.partials (V4 m ρ) c 0 :=
  (W5_arr m ρ c 3).trans (Round1Pass.final0 (V4 m ρ) c)
theorem pools1 : W5 m ρ c (Proc.devRef .tc main_v44_1) = Round1Pass.partials (V4 m ρ) c 1 :=
  (W5_arr m ρ c 4).trans (Round1Pass.final1 (V4 m ρ) c)

/-- The two cores' partial sums of head `q` add up to the head's output. -/
theorem pooled_head (q : Fin 2) (d : Fin 256) :
    Round1Pass.partials (V4 m ρ) c q (ix3 (0 : Fin 2) (0 : Fin 1) d)
        + Round1Pass.partials (V4 m ρ) c q (ix3 (1 : Fin 2) (0 : Fin 1) d)
      = out (rowsOf (xs m c)) (matOf (ws m c) q) d := by
  unfold out
  refine (Accumulate.cores_total (Round1Pass.term (V4 m ρ) c q d) 20 5000 rfl).trans ?_
  exact Finset.sum_congr rfl fun k _ => term1 m ρ c q d k

/-- The result buffer after the last stretch. -/
theorem result : W6 m ρ c (Proc.devRef .tc main_v57)
    = Stages.pooled (F := Ideal) (Round1Pass.partials (V4 m ρ) c 0) (Round1Pass.partials (V4 m ρ) c 1) := by
  show StableHlo.after hostOps3 (W5 m ρ c) (Proc.devRef .tc main_v57) = _
  rw [Stages.stretch3, pools0, pools1]

end Cert.KernelIdeal.Whole

end
-- ==== Proof.ReferenceHeads.lean ====
/-
  The reference program, read one operation at a time, computes `Cert.Attn.out` for each head.
-/
import proofs.«156319_j5583457485032_2_alg».proof.Proof.Gen.ReferenceIdeal.Read
import proofs.«156319_j5583457485032_2_alg».proof.Proof.Attention

noncomputable section

namespace Cert.RefHeads

open Idealize.ShloMosaic Cert.ReferenceIdeal Cert.ReferenceIdeal.Read

/-- The float word `0x3F800000` is one. -/
theorem one_f32 : Ideal.ofBits .f32 0x3F800000#32 = 1 := by
  simp [Ideal.ofBits, Ideal.ieee, -EReal.coe_mul]; norm_num

/-! ### Head 0 -/

/-- The head's matrix: the slice of the stacked matrices at 0, reshaped to 256×256. -/
theorem mat_a (x1 : (⟨S2x256x256, .f32⟩ : BufTy).Contents (Elt Ideal)) (d e : Fin 256) :
    val_main_v1 (F := Ideal) x1 (ValueIdx.ix2 d e) = Attn.matOf x1 0 d e := by
  rw [val_main_v1_apply, val_main_v0_apply]
  have hd := d.isLt
  have he := e.isLt
  refine congrArg x1 (funext fun a => Fin.ext ?_)
  match a with
  | ⟨0, _⟩ => rfl
  | ⟨1, _⟩ => show (d.val * 256 + e.val) / 256 % 256 = d.val; omega
  | ⟨2, _⟩ => show (d.val * 256 + e.val) % 256 = e.val; omega

/-- Round 0's column means. -/
theorem mean0_a (x0 : (⟨S200000x256, .f32⟩ : BufTy).Contents (Elt Ideal)) (d : Fin 256) :
    val_main_v5 (F := Ideal) x0 (ValueIdx.ix2 0 d) = Attn.mean (Attn.rowsOf x0) d := by
  have e : ∀ k : Fin 200000, idx_main_v2 (idx_main_v3 (ValueIdx.ix2 0 d)) k = ValueIdx.ix2 k d :=
    fun k => funext fun a => match a with | ⟨0, _⟩ => rfl | ⟨1, _⟩ => rfl
  rw [val_main_v5_apply, val_main_v3_apply, val_main_v2_apply, val_main_v4_apply, val_main_cst_apply, val_main_cst_0_apply]
  simp only [Ideal.hostDivf_def, Ideal.ofBits_def, Ideal.ofBits_zero_f32, zero_add, e]
  rfl

/-- Round 0's direction. -/
theorem dir0_a (x0 : (⟨S200000x256, .f32⟩ : BufTy).Contents (Elt Ideal)) (x1 : (⟨S2x256x256, .f32⟩ : BufTy).Contents (Elt Ideal)) (e : Fin 256) :
    val_main_v7 (F := Ideal) x0 x1 (ValueIdx.ix2 0 e) = Attn.h0 (Attn.rowsOf x0) (Attn.matOf x1 0) e := by
  rw [val_main_v7_apply, val_main_v6_apply]
  refine congrArg Ideal.tanh (Finset.sum_congr rfl fun k _ => ?_)
  have e1 : lidx_main_v6 (ValueIdx.ix2 0 e) k = ValueIdx.ix2 0 k :=
    funext fun a => match a with | ⟨0, _⟩ => rfl | ⟨1, _⟩ => rfl
  have e2 : ridx_main_v6 (ValueIdx.ix2 0 e) k = ValueIdx.ix2 k e :=
    funext fun a => match a with | ⟨0, _⟩ => rfl | ⟨1, _⟩ => rfl
  rw [e1, e2, mean0_a, mat_a]

/-- Round 0's scores. -/
theorem score0_a (x0 : (⟨S200000x256, .f32⟩ : BufTy).Contents (Elt Ideal)) (x1 : (⟨S2x256x256, .f32⟩ : BufTy).Contents (Elt Ideal)) (n : Fin 200000) :
    val_main_v9 (F := Ideal) x0 x1 (ValueIdx.ix2 n 0) = Attn.dot (Attn.rowsOf x0 n) (Attn.h0 (Attn.rowsOf x0) (Attn.matOf x1 0)) := by
  rw [val_main_v9_apply]
  refine Finset.sum_congr rfl fun k _ => ?_
  have e1 : lidx_main_v9 (ValueIdx.ix2 n 0) k = ValueIdx.ix2 n k :=
    funext fun a => match a with | ⟨0, _⟩ => rfl | ⟨1, _⟩ => rfl
  have e2 : idx_main_v8 (ridx_main_v9 (ValueIdx.ix2 n 0) k) = ValueIdx.ix2 0 k :=
    funext fun a => match a with | ⟨0, _⟩ => rfl | ⟨1, _⟩ => rfl
  rw [val_main_v8_apply, e1, e2, dir0_a]
  rfl

/-- Round 0's normaliser: the sum of `|s|` over an axis of size one, floored at ε. -/
theorem norm0_a (x0 : (⟨S200000x256, .f32⟩ : BufTy).Contents (Elt Ideal)) (x1 : (⟨S2x256x256, .f32⟩ : BufTy).Contents (Elt Ideal)) (n : Fin 200000) :
    val_main_v14 (F := Ideal) x0 x1 (ValueIdx.ix2 n 0) =
      max (max (val_main_v9 (F := Ideal) x0 x1 (ValueIdx.ix2 n 0)) (-(val_main_v9 (F := Ideal) x0 x1 (ValueIdx.ix2 n 0)))) Attn.cEps := by
  have e : idx_main_v11 (idx_main_v12 (ValueIdx.ix2 n 0)) 0 = ValueIdx.ix2 n 0 :=
    funext fun a => match a with | ⟨0, _⟩ => rfl | ⟨1, _⟩ => rfl
  rw [val_main_v14_apply, val_main_v12_apply, val_main_v11_apply, val_main_v13_apply, val_main_cst_1_apply, val_main_cst_2_apply, Fin.sum_univ_one, e, val_main_v10_apply]
  simp only [Ideal.ofBits_def, Ideal.ofBits_zero_f32, zero_add]
  rfl

/-- Round 0's weights: `1 / (1 + exp (-z))` is the logistic function of `z`. -/
theorem gate0_a (x0 : (⟨S200000x256, .f32⟩ : BufTy).Contents (Elt Ideal)) (x1 : (⟨S2x256x256, .f32⟩ : BufTy).Contents (Elt Ideal)) (n : Fin 200000) :
    val_main_v21 (F := Ideal) x0 x1 (ValueIdx.ix2 n 0) = Attn.a0 (Attn.rowsOf x0) (Attn.matOf x1 0) n := by
  rw [val_main_v21_apply, val_main_v20_apply, val_main_v19_apply, val_main_v18_apply, val_main_v17_apply, val_main_v16_apply, val_main_v15_apply, norm0_a, score0_a, val_main_cst_3_apply, val_main_cst_4_apply]
  simp only [Ideal.ofBits_def, one_f32]
  rfl

/-- The rows after round 0: each row times its weight. -/
theorem rows1_a (x0 : (⟨S200000x256, .f32⟩ : BufTy).Contents (Elt Ideal)) (x1 : (⟨S2x256x256, .f32⟩ : BufTy).Contents (Elt Ideal)) (n : Fin 200000) (d : Fin 256) :
    val_main_v25 (F := Ideal) x0 x1 (ValueIdx.ix2 n d) = Attn.y1 (Attn.rowsOf x0) (Attn.matOf x1 0) n d := by
  have e : idx_main_v24 (ValueIdx.ix2 n d) = ValueIdx.ix2 n 0 :=
    funext fun a => match a with | ⟨0, _⟩ => rfl | ⟨1, _⟩ => rfl
  rw [val_main_v25_apply, val_main_v24_apply, e, gate0_a]
  rfl

/-- Round 1's column means. -/
theorem mean1_a (x0 : (⟨S200000x256, .f32⟩ : BufTy).Contents (Elt Ideal)) (x1 : (⟨S2x256x256, .f32⟩ : BufTy).Contents (Elt Ideal)) (d : Fin 256) :
    val_main_v29 (F := Ideal) x0 x1 (ValueIdx.ix2 0 d) = Attn.mean (Attn.y1 (Attn.rowsOf x0) (Attn.matOf x1 0)) d := by
  have e : ∀ k : Fin 200000, idx_main_v26 (idx_main_v27 (ValueIdx.ix2 0 d)) k = ValueIdx.ix2 k d :=
    fun k => funext fun a => match a with | ⟨0, _⟩ => rfl | ⟨1, _⟩ => rfl
  rw [val_main_v29_apply, val_main_v27_apply, val_main_v26_apply, val_main_v28_apply, val_main_cst_5_apply, val_main_cst_6_apply]
  simp only [Ideal.hostDivf_def, Ideal.ofBits_def, Ideal.ofBits_zero_f32, zero_add, e, rows1_a]
  rfl

/-- Round 1's direction. -/
theorem dir1_a (x0 : (⟨S200000x256, .f32⟩ : BufTy).Contents (Elt Ideal)) (x1 : (⟨S2x256x256, .f32⟩ : BufTy).Contents (Elt Ideal)) (e : Fin 256) :
    val_main_v31 (F := Ideal) x0 x1 (ValueIdx.ix2 0 e) = Attn.h1 (Attn.rowsOf x0) (Attn.matOf x1 0) e := by
  rw [val_main_v31_apply, val_main_v30_apply]
  refine congrArg Ideal.tanh (Finset.sum_congr rfl fun k _ => ?_)
  have e1 : lidx_main_v30 (ValueIdx.ix2 0 e) k = ValueIdx.ix2 0 k :=
    funext fun a => match a with | ⟨0, _⟩ => rfl | ⟨1, _⟩ => rfl
  have e2 : ridx_main_v30 (ValueIdx.ix2 0 e) k = ValueIdx.ix2 k e :=
    funext fun a => match a with | ⟨0, _⟩ => rfl | ⟨1, _⟩ => rfl
  rw [e1, e2, mean1_a, mat_a]

/-- Round 1's scores. -/
theorem score1_a (x0 : (⟨S200000x256, .f32⟩ : BufTy).Contents (Elt Ideal)) (x1 : (⟨S2x256x256, .f32⟩ : BufTy).Contents (Elt Ideal)) (n : Fin 200000) :
    val_main_v33 (F := Ideal) x0 x1 (ValueIdx.ix2 n 0) = Attn.dot (Attn.y1 (Attn.rowsOf x0) (Attn.matOf x1 0) n) (Attn.h1 (Attn.rowsOf x0) (Attn.matOf x1 0)) := by
  rw [val_main_v33_apply]
  refine Finset.sum_congr rfl fun k _ => ?_
  have e1 : lidx_main_v33 (ValueIdx.ix2 n 0) k = ValueIdx.ix2 n k :=
    funext fun a => match a with | ⟨0, _⟩ => rfl | ⟨1, _⟩ => rfl
  have e2 : idx_main_v32 (ridx_main_v33 (ValueIdx.ix2 n 0) k) = ValueIdx.ix2 0 k :=
    funext fun a => match a with | ⟨0, _⟩ => rfl | ⟨1, _⟩ => rfl
  rw [val_main_v32_apply, e1, e2, dir1_a, rows1_a]

/-- Round 1's normaliser: the sum of `|s|` over an axis of size one, floored at ε. -/
theorem norm1_a (x0 : (⟨S200000x256, .f32⟩ : BufTy).Contents (Elt Ideal)) (x1 : (⟨S2x256x256, .f32⟩ : BufTy).Contents (Elt Ideal)) (n : Fin 200000) :
    val_main_v38 (F := Ideal) x0 x1 (ValueIdx.ix2 n 0) =
      max (max (val_main_v33 (F := Ideal) x0 x1 (ValueIdx.ix2 n 0)) (-(val_main_v33 (F := Ideal) x0 x1 (ValueIdx.ix2 n 0)))) Attn.cEps := by
  have e : idx_main_v35 (idx_main_v36 (ValueIdx.ix2 n 0)) 0 = ValueIdx.ix2 n 0 :=
    funext fun a => match a with | ⟨0, _⟩ => rfl | ⟨1, _⟩ => rfl
  rw [val_main_v38_apply, val_main_v36_apply, val_main_v35_apply, val_main_v37_apply, val_main_cst_7_apply, val_main_cst_8_apply, Fin.sum_univ_one, e, val_main_v34_apply]
  simp only [Ideal.ofBits_def, Ideal.ofBits_zero_f32, zero_add]
  rfl

/-- Round 1's weights: `1 / (1 + exp (-z))` is the logistic function of `z`. -/
theorem gate1_a (x0 : (⟨S200000x256, .f32⟩ : BufTy).Contents (Elt Ideal)) (x1 : (⟨S2x256x256, .f32⟩ : BufTy).Contents (Elt Ideal)) (n : Fin 200000) :
    val_main_v45 (F := Ideal) x0 x1 (ValueIdx.ix2 n 0) = Attn.a1 (Attn.rowsOf x0) (Attn.matOf x1 0) n := by
  rw [val_main_v45_apply, val_main_v44_apply, val_main_v43_apply, val_main_v42_apply, val_main_v41_apply, val_main_v40_apply, val_main_v39_apply, norm1_a, score1_a, val_main_cst_9_apply, val_main_cst_10_apply]
  simp only [Ideal.ofBits_def, one_f32]
  rfl

/-- The head's output: the rows after round 0 pooled by round 1's weights. -/
theorem head0 (x0 : (⟨S200000x256, .f32⟩ : BufTy).Contents (Elt Ideal)) (x1 : (⟨S2x256x256, .f32⟩ : BufTy).Contents (Elt Ideal)) (d : Fin 256) :
    val_main_v47 (F := Ideal) x0 x1 (ValueIdx.ix2 0 d) = Cert.Attn.out (Cert.Attn.rowsOf x0) (Cert.Attn.matOf x1 0) d := by
  rw [val_main_v47_apply]
  refine Finset.sum_congr rfl fun k _ => ?_
  have e1 : idx_main_v46 (lidx_main_v47 (ValueIdx.ix2 0 d) k) = ValueIdx.ix2 k 0 :=
    funext fun a => match a with | ⟨0, _⟩ => rfl | ⟨1, _⟩ => rfl
  have e2 : ridx_main_v47 (ValueIdx.ix2 0 d) k = ValueIdx.ix2 k d :=
    funext fun a => match a with | ⟨0, _⟩ => rfl | ⟨1, _⟩ => rfl
  rw [val_main_v46_apply, e1, e2, gate1_a, rows1_a]

/-! ### Head 1 -/

/-- The head's matrix: the slice of the stacked matrices at 1, reshaped to 256×256. -/
theorem mat_b (x1 : (⟨S2x256x256, .f32⟩ : BufTy).Contents (Elt Ideal)) (d e : Fin 256) :
    val_main_v51 (F := Ideal) x1 (ValueIdx.ix2 d e) = Attn.matOf x1 1 d e := by
  rw [val_main_v51_apply, val_main_v50_apply]
  have hd := d.isLt
  have he := e.isLt
  refine congrArg x1 (funext fun a => Fin.ext ?_)
  match a with
  | ⟨0, _⟩ => rfl
  | ⟨1, _⟩ => show (d.val * 256 + e.val) / 256 % 256 = d.val; omega
  | ⟨2, _⟩ => show (d.val * 256 + e.val) % 256 = e.val; omega

/-- Round 0's column means. -/
theorem mean0_b (x0 : (⟨S200000x256, .f32⟩ : BufTy).Contents (Elt Ideal)) (d : Fin 256) :
    val_main_v55 (F := Ideal) x0 (ValueIdx.ix2 0 d) = Attn.mean (Attn.rowsOf x0) d := by
  have e : ∀ k : Fin 200000, idx_main_v52 (idx_main_v53 (ValueIdx.ix2 0 d)) k = ValueIdx.ix2 k d :=
    fun k => funext fun a => match a with | ⟨0, _⟩ => rfl | ⟨1, _⟩ => rfl
  rw [val_main_v55_apply, val_main_v53_apply, val_main_v52_apply, val_main_v54_apply, val_main_cst_11_apply, val_main_cst_12_apply]
  simp only [Ideal.hostDivf_def, Ideal.ofBits_def, Ideal.ofBits_zero_f32, zero_add, e]
  rfl

/-- Round 0's direction. -/
theorem dir0_b (x0 : (⟨S200000x256, .f32⟩ : BufTy).Contents (Elt Ideal)) (x1 : (⟨S2x256x256, .f32⟩ : BufTy).Contents (Elt Ideal)) (e : Fin 256) :
    val_main_v57 (F := Ideal) x0 x1 (ValueIdx.ix2 0 e) = Attn.h0 (Attn.rowsOf x0) (Attn.matOf x1 1) e := by
  rw [val_main_v57_apply, val_main_v56_apply]
  refine congrArg Ideal.tanh (Finset.sum_congr rfl fun k _ => ?_)
  have e1 : lidx_main_v56 (ValueIdx.ix2 0 e) k = ValueIdx.ix2 0 k :=
    funext fun a => match a with | ⟨0, _⟩ => rfl | ⟨1, _⟩ => rfl
  have e2 : ridx_main_v56 (ValueIdx.ix2 0 e) k = ValueIdx.ix2 k e :=
    funext fun a => match a with | ⟨0, _⟩ => rfl | ⟨1, _⟩ => rfl
  rw [e1, e2, mean0_b, mat_b]

/-- Round 0's scores. -/
theorem score0_b (x0 : (⟨S200000x256, .f32⟩ : BufTy).Contents (Elt Ideal)) (x1 : (⟨S2x256x256, .f32⟩ : BufTy).Contents (Elt Ideal)) (n : Fin 200000) :
    val_main_v59 (F := Ideal) x0 x1 (ValueIdx.ix2 n 0) = Attn.dot (Attn.rowsOf x0 n) (Attn.h0 (Attn.rowsOf x0) (Attn.matOf x1 1)) := by
  rw [val_main_v59_apply]
  refine Finset.sum_congr rfl fun k _ => ?_
  have e1 : lidx_main_v59 (ValueIdx.ix2 n 0) k = ValueIdx.ix2 n k :=
    funext fun a => match a with | ⟨0, _⟩ => rfl | ⟨1, _⟩ => rfl
  have e2 : idx_main_v58 (ridx_main_v59 (ValueIdx.ix2 n 0) k) = ValueIdx.ix2 0 k :=
    funext fun a => match a with | ⟨0, _⟩ => rfl | ⟨1, _⟩ => rfl
  rw [val_main_v58_apply, e1, e2, dir0_b]
  rfl

/-- Round 0's normaliser: the sum of `|s|` over an axis of size one, floored at ε. -/
theorem norm0_b (x0 : (⟨S200000x256, .f32⟩ : BufTy).Contents (Elt Ideal)) (x1 : (⟨S2x256x256, .f32⟩ : BufTy).Contents (Elt Ideal)) (n : Fin 200000) :
    val_main_v64 (F := Ideal) x0 x1 (ValueIdx.ix2 n 0) =
      max (max (val_main_v59 (F := Ideal) x0 x1 (ValueIdx.ix2 n 0)) (-(val_main_v59 (F := Ideal) x0 x1 (ValueIdx.ix2 n 0)))) Attn.cEps := by
  have e : idx_main_v61 (idx_main_v62 (ValueIdx.ix2 n 0)) 0 = ValueIdx.ix2 n 0 :=
    funext fun a => match a with | ⟨0, _⟩ => rfl | ⟨1, _⟩ => rfl
  rw [val_main_v64_apply, val_main_v62_apply, val_main_v61_apply, val_main_v63_apply, val_main_cst_13_apply, val_main_cst_14_apply, Fin.sum_univ_one, e, val_main_v60_apply]
  simp only [Ideal.ofBits_def, Ideal.ofBits_zero_f32, zero_add]
  rfl

/-- Round 0's weights: `1 / (1 + exp (-z))` is the logistic function of `z`. -/
theorem gate0_b (x0 : (⟨S200000x256, .f32⟩ : BufTy).Contents (Elt Ideal)) (x1 : (⟨S2x256x256, .f32⟩ : BufTy).Contents (Elt Ideal)) (n : Fin 200000) :
    val_main_v71 (F := Ideal) x0 x1 (ValueIdx.ix2 n 0) = Attn.a0 (Attn.rowsOf x0) (Attn.matOf x1 1) n := by
  rw [val_main_v71_apply, val_main_v70_apply, val_main_v69_apply, val_main_v68_apply, val_main_v67_apply, val_main_v66_apply, val_main_v65_apply, norm0_b, score0_b, val_main_cst_15_apply, val_main_cst_16_apply]
  simp only [Ideal.ofBits_def, one_f32]
  rfl

/-- The rows after round 0: each row times its weight. -/
theorem rows1_b (x0 : (⟨S200000x256, .f32⟩ : BufTy).Contents (Elt Ideal)) (x1 : (⟨S2x256x256, .f32⟩ : BufTy).Contents (Elt Ideal)) (n : Fin 200000) (d : Fin 256) :
    val_main_v75 (F := Ideal) x0 x1 (ValueIdx.ix2 n d) = Attn.y1 (Attn.rowsOf x0) (Attn.matOf x1 1) n d := by
  have e : idx_main_v74 (ValueIdx.ix2 n d) = ValueIdx.ix2 n 0 :=
    funext fun a => match a with | ⟨0, _⟩ => rfl | ⟨1, _⟩ => rfl
  rw [val_main_v75_apply, val_main_v74_apply, e, gate0_b]
  rfl

/-- Round 1's column means. -/
theorem mean1_b (x0 : (⟨S200000x256, .f32⟩ : BufTy).Contents (Elt Ideal)) (x1 : (⟨S2x256x256, .f32⟩ : BufTy).Contents (Elt Ideal)) (d : Fin 256) :
    val_main_v79 (F := Ideal) x0 x1 (ValueIdx.ix2 0 d) = Attn.mean (Attn.y1 (Attn.rowsOf x0) (Attn.matOf x1 1)) d := by
  have e : ∀ k : Fin 200000, idx_main_v76 (idx_main_v77 (ValueIdx.ix2 0 d)) k = ValueIdx.ix2 k d :=
    fun k => funext fun a => match a with | ⟨0, _⟩ => rfl | ⟨1, _⟩ => rfl
  rw [val_main_v79_apply, val_main_v77_apply, val_main_v76_apply, val_main_v78_apply, val_main_cst_17_apply, val_main_cst_18_apply]
  simp only [Ideal.hostDivf_def, Ideal.ofBits_def, Ideal.ofBits_zero_f32, zero_add, e, rows1_b]
  rfl

/-- Round 1's direction. -/
theorem dir1_b (x0 : (⟨S200000x256, .f32⟩ : BufTy).Contents (Elt Ideal)) (x1 : (⟨S2x256x256, .f32⟩ : BufTy).Contents (Elt Ideal)) (e : Fin 256) :
    val_main_v81 (F := Ideal) x0 x1 (ValueIdx.ix2 0 e) = Attn.h1 (Attn.rowsOf x0) (Attn.matOf x1 1) e := by
  rw [val_main_v81_apply, val_main_v80_apply]
  refine congrArg Ideal.tanh (Finset.sum_congr rfl fun k _ => ?_)
  have e1 : lidx_main_v80 (ValueIdx.ix2 0 e) k = ValueIdx.ix2 0 k :=
    funext fun a => match a with | ⟨0, _⟩ => rfl | ⟨1, _⟩ => rfl
  have e2 : ridx_main_v80 (ValueIdx.ix2 0 e) k = ValueIdx.ix2 k e :=
    funext fun a => match a with | ⟨0, _⟩ => rfl | ⟨1, _⟩ => rfl
  rw [e1, e2, mean1_b, mat_b]

/-- Round 1's scores. -/
theorem score1_b (x0 : (⟨S200000x256, .f32⟩ : BufTy).Contents (Elt Ideal)) (x1 : (⟨S2x256x256, .f32⟩ : BufTy).Contents (Elt Ideal)) (n : Fin 200000) :
    val_main_v83 (F := Ideal) x0 x1 (ValueIdx.ix2 n 0) = Attn.dot (Attn.y1 (Attn.rowsOf x0) (Attn.matOf x1 1) n) (Attn.h1 (Attn.rowsOf x0) (Attn.matOf x1 1)) := by
  rw [val_main_v83_apply]
  refine Finset.sum_congr rfl fun k _ => ?_
  have e1 : lidx_main_v83 (ValueIdx.ix2 n 0) k = ValueIdx.ix2 n k :=
    funext fun a => match a with | ⟨0, _⟩ => rfl | ⟨1, _⟩ => rfl
  have e2 : idx_main_v82 (ridx_main_v83 (ValueIdx.ix2 n 0) k) = ValueIdx.ix2 0 k :=
    funext fun a => match a with | ⟨0, _⟩ => rfl | ⟨1, _⟩ => rfl
  rw [val_main_v82_apply, e1, e2, dir1_b, rows1_b]

/-- Round 1's normaliser: the sum of `|s|` over an axis of size one, floored at ε. -/
theorem norm1_b (x0 : (⟨S200000x256, .f32⟩ : BufTy).Contents (Elt Ideal)) (x1 : (⟨S2x256x256, .f32⟩ : BufTy).Contents (Elt Ideal)) (n : Fin 200000) :
    val_main_v88 (F := Ideal) x0 x1 (ValueIdx.ix2 n 0) =
      max (max (val_main_v83 (F := Ideal) x0 x1 (ValueIdx.ix2 n 0)) (-(val_main_v83 (F := Ideal) x0 x1 (ValueIdx.ix2 n 0)))) Attn.cEps := by
  have e : idx_main_v85 (idx_main_v86 (ValueIdx.ix2 n 0)) 0 = ValueIdx.ix2 n 0 :=
    funext fun a => match a with | ⟨0, _⟩ => rfl | ⟨1, _⟩ => rfl
  rw [val_main_v88_apply, val_main_v86_apply, val_main_v85_apply, val_main_v87_apply, val_main_cst_19_apply, val_main_cst_20_apply, Fin.sum_univ_one, e, val_main_v84_apply]
  simp only [Ideal.ofBits_def, Ideal.ofBits_zero_f32, zero_add]
  rfl

/-- Round 1's weights: `1 / (1 + exp (-z))` is the logistic function of `z`. -/
theorem gate1_b (x0 : (⟨S200000x256, .f32⟩ : BufTy).Contents (Elt Ideal)) (x1 : (⟨S2x256x256, .f32⟩ : BufTy).Contents (Elt Ideal)) (n : Fin 200000) :
    val_main_v95 (F := Ideal) x0 x1 (ValueIdx.ix2 n 0) = Attn.a1 (Attn.rowsOf x0) (Attn.matOf x1 1) n := by
  rw [val_main_v95_apply, val_main_v94_apply, val_main_v93_apply, val_main_v92_apply, val_main_v91_apply, val_main_v90_apply, val_main_v89_apply, norm1_b, score1_b, val_main_cst_21_apply, val_main_cst_22_apply]
  simp only [Ideal.ofBits_def, one_f32]
  rfl

/-- The head's output: the rows after round 0 pooled by round 1's weights. -/
theorem head1 (x0 : (⟨S200000x256, .f32⟩ : BufTy).Contents (Elt Ideal)) (x1 : (⟨S2x256x256, .f32⟩ : BufTy).Contents (Elt Ideal)) (d : Fin 256) :
    val_main_v97 (F := Ideal) x0 x1 (ValueIdx.ix2 0 d) = Cert.Attn.out (Cert.Attn.rowsOf x0) (Cert.Attn.matOf x1 1) d := by
  rw [val_main_v97_apply]
  refine Finset.sum_congr rfl fun k _ => ?_
  have e1 : idx_main_v96 (lidx_main_v97 (ValueIdx.ix2 0 d) k) = ValueIdx.ix2 k 0 :=
    funext fun a => match a with | ⟨0, _⟩ => rfl | ⟨1, _⟩ => rfl
  have e2 : ridx_main_v97 (ValueIdx.ix2 0 d) k = ValueIdx.ix2 k d :=
    funext fun a => match a with | ⟨0, _⟩ => rfl | ⟨1, _⟩ => rfl
  rw [val_main_v96_apply, e1, e2, gate1_b, rows1_b]

end Cert.RefHeads

end
-- ==== Proof.Bridge.lean ====
import proofs.«156319_j5583457485032_2_alg».proof.Proof.HostStages
import proofs.«156319_j5583457485032_2_alg».proof.Proof.ReferenceHeads
import proofs.«156319_j5583457485032_2_alg».proof.Proof.Gen.ReferenceIdeal.Read

/-!
  The two programs' results meet: both are two [1, 256] rows set side by side, and each row is the
  corresponding head's output `Attn.out` — for the kernel program the two cores' partial sums added,
  for the reference its own pooled row.
-/

noncomputable section

namespace Cert.Bridge

open Idealize.ShloMosaic Idealize.ShloMosaic.ValueIdx Cert.Attn

/-- Pooled rows whose two cores' partial sums add up to the heads' outputs are the reference's result. -/
theorem pooled_eq (x0 : (⟨Cert.ReferenceIdeal.S200000x256, .f32⟩ : BufTy).Contents (Elt Ideal))
    (x1 : (⟨Cert.ReferenceIdeal.S2x256x256, .f32⟩ : BufTy).Contents (Elt Ideal))
    (p0 p1 : FVec Ideal Cert.KernelIdeal.S2x1x256 .f32)
    (h0 : ∀ d : Fin 256, p0 (ix3 (0 : Fin 2) (0 : Fin 1) d) + p0 (ix3 (1 : Fin 2) (0 : Fin 1) d) = out (rowsOf x0) (matOf x1 0) d)
    (h1 : ∀ d : Fin 256, p1 (ix3 (0 : Fin 2) (0 : Fin 1) d) + p1 (ix3 (1 : Fin 2) (0 : Fin 1) d) = out (rowsOf x0) (matOf x1 1) d) :
    Cert.KernelIdeal.Stages.pooled p0 p1 = Cert.ReferenceIdeal.Read.val_main_v100 (F := Ideal) x0 x1 := by
  have eA : broadcastInDim Cert.KernelIdeal.S1x256 ![1] Cert.KernelIdeal.Gen.bcast_S256_S1x256_1 (Cert.KernelIdeal.Stages.coresSum p0)
      = Cert.ReferenceIdeal.Read.val_main_v47 (F := Ideal) x0 x1 := funext fun i => by
    obtain ⟨u, d, rfl⟩ : ∃ (u : Fin 1) (d : Fin 256), i = ix2 u d := ⟨i 0, i 1, eq_ix2 i⟩
    obtain rfl : u = 0 := Subsingleton.elim _ _
    rw [Cert.KernelIdeal.Stages.pooled_row_apply, h0, Cert.RefHeads.head0]
  have eB : broadcastInDim Cert.KernelIdeal.S1x256 ![1] Cert.KernelIdeal.Gen.bcast_S256_S1x256_1 (Cert.KernelIdeal.Stages.coresSum p1)
      = Cert.ReferenceIdeal.Read.val_main_v97 (F := Ideal) x0 x1 := funext fun i => by
    obtain ⟨u, d, rfl⟩ : ∃ (u : Fin 1) (d : Fin 256), i = ix2 u d := ⟨i 0, i 1, eq_ix2 i⟩
    obtain rfl : u = 0 := Subsingleton.elim _ _
    rw [Cert.KernelIdeal.Stages.pooled_row_apply, h1, Cert.RefHeads.head1]
  unfold Cert.KernelIdeal.Stages.pooled Cert.ReferenceIdeal.Read.val_main_v100
  rw [eA, eB]

end Cert.Bridge

end
-- ==== Proof.lean ====
/-
  The certificate of the two-round attention pooling kernel against its reference.

  Both programs compute, for each of two heads with matrix `w`, over the extended reals
  (`Proof/Attention.lean`): round 0's direction `h₀ = tanh (mean x · w)`, each row's weight
  `a₀ n = σ (s / max |s| ε)` of its score `s = ⟨x n, h₀⟩`, the re-weighted rows `y n = x n · a₀ n`,
  round 1's direction `h₁ = tanh (mean y · w)`, weights `a₁ n` of the scores `⟨y n, h₁⟩`, and the
  output `∑ n, a₁ n · y n`; the result is the two heads' outputs side by side.

  The reference does it with whole-array host operations (`Proof/ReferenceHeads.lean` reads its
  two pooled rows as `Attn.out`, spelling the logistic function as `1 / (1 + exp (-z))`).
  The kernel program makes three sweeps over the rows, each split over two cores and cut into tiles:
  column sums of `x` (`Proof/ColumnPass.lean`), per head the column sums of `y`
  (`Proof/Round0Pass.lean`), per head the pooled sums with `y` recomputed in place
  (`Proof/Round1Pass.lean`); a core's accumulator block is reset at its first tile and written back
  after its last, so it ends at the sum of its tiles (`Proof/Accumulate.lean`), and the host adds the
  two cores' blocks — the whole sum over the rows, since sums of extended reals regroup freely
  (`Proof/Sums.lean`). What each tile adds is `Proof/TileValues.lean`; the host operations between
  the sweeps are `Proof/HostStages.lean`; `Proof/KernelValue.lean` follows the buffers through the
  program and `Proof/Bridge.lean` joins the two results. No law used needs finiteness: the
  precondition is never opened. The ideal pass rewrote nothing, so `preserves` is trivial.
-/
import proofs.«156319_j5583457485032_2_alg».proof.Defs
import proofs.«156319_j5583457485032_2_alg».proof.Proof.Gen.Kernel
import proofs.«156319_j5583457485032_2_alg».proof.Proof.Gen.Kernel.Skeleton
import proofs.«156319_j5583457485032_2_alg».proof.Proof.Gen.Kernel.Launch
import proofs.«156319_j5583457485032_2_alg».proof.Proof.Gen.Kernel.Points
import proofs.«156319_j5583457485032_2_alg».proof.Proof.Gen.Kernel.Frame
import proofs.«156319_j5583457485032_2_alg».proof.Proof.Gen.KernelIdeal
import proofs.«156319_j5583457485032_2_alg».proof.Proof.Gen.KernelIdeal.Skeleton
import proofs.«156319_j5583457485032_2_alg».proof.Proof.Gen.KernelIdeal.Launch
import proofs.«156319_j5583457485032_2_alg».proof.Proof.Gen.KernelIdeal.Points
import proofs.«156319_j5583457485032_2_alg».proof.Proof.Gen.KernelIdeal.Frame
import proofs.«156319_j5583457485032_2_alg».proof.Proof.Gen.ReferenceIdeal
import proofs.«156319_j5583457485032_2_alg».proof.Proof.Gen.Pre_finite_inputs
import proofs.«156319_j5583457485032_2_alg».proof.Proof.Gen.ReferenceIdeal.Run
import proofs.«156319_j5583457485032_2_alg».proof.Proof.Gen.ReferenceIdeal.Read
import proofs.«156319_j5583457485032_2_alg».proof.Proof.KernelRun
import proofs.«156319_j5583457485032_2_alg».proof.Proof.KernelValue
import proofs.«156319_j5583457485032_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the two heads' outputs side by side. -/
theorem algebraic : Cert.algebraic_KernelIdeal_ReferenceIdeal := by
  intro m ρ m' ρ' _ hagree
  refine ⟨fun c => Cert.KernelIdeal.Gen.W6 m ρ c (Proc.devRef .tc Cert.KernelIdeal.main_v57),
    Cert.KernelIdeal.Run.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v100_eq, (hagree c).1, (hagree c).2]
  show _ = Cert.KernelIdeal.Gen.W6 m ρ c (Proc.devRef .tc Cert.KernelIdeal.main_v57)
  rw [Cert.KernelIdeal.Whole.result]
  exact (Cert.Bridge.pooled_eq _ _ _ _ (Cert.KernelIdeal.Whole.pooled_head m ρ c 0)
    (Cert.KernelIdeal.Whole.pooled_head m ρ c 1)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
